-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3)) (m ((c.tc : Thread Cert.Kernel.nD Cert.Kernel.τ).loc Cert.Kernel.main_arg4)) (m ((c.tc : Thread Cert.Kernel.nD Cert.Kernel.τ).loc Cert.Kernel.main_arg5))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)) →
    ∃ (v0 : (c : Dev Cert.KernelIdeal.nD) → Buf (Elt Ideal) ((c.tc : Thread Cert.KernelIdeal.nD Cert.KernelIdeal.τ).loc Cert.KernelIdeal.main_v31)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v31) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v35) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S4096x70 : Shape := ⟨2, ![4096, 70]⟩
abbrev S4096x130 : Shape := ⟨2, ![4096, 130]⟩
abbrev S1000000x64 : Shape := ⟨2, ![1000000, 64]⟩
abbrev S1000000x32 : Shape := ⟨2, ![1000000, 32]⟩
abbrev S2336x128 : Shape := ⟨2, ![2336, 128]⟩
abbrev S128 : Shape := ⟨1, ![128]⟩
abbrev S_ : Shape := ⟨0, ![]⟩

class Facts : Prop where
  bcast_S_S1000000x64 : S_.BroadcastsInDim S1000000x64 (![] : Fin 0 → Fin S1000000x64.rank)
  reducesTo_S1000000x64_S_d0_1 : S1000000x64.ReducesTo [0, 1] S_
  h_S_ : 0 < S_.numel
  bcast_S_S1000000x32 : S_.BroadcastsInDim S1000000x32 (![] : Fin 0 → Fin S1000000x32.rank)
  reducesTo_S1000000x32_S_d0_1 : S1000000x32.ReducesTo [0, 1] S_
  bcast_S_S2336x128 : S_.BroadcastsInDim S2336x128 (![] : Fin 0 → Fin S2336x128.rank)
  reducesTo_S2336x128_S_d0_1 : S2336x128.ReducesTo [0, 1] S_
  bcast_S_S128 : S_.BroadcastsInDim S128 (![] : Fin 0 → Fin S128.rank)
  reducesTo_S128_S_d0 : S128.ReducesTo [0] S_

variable [Facts]

def fn_part1 {F : FTy → Type} [FloatOps F] (main_v13 : IVec S_ 1) (main_v16 : IVec S128 1) : IVec S_ 1 :=
  let main_c_5 : IVec S_ 1 := constantI S_ 1 1#1
  let main_v17 : IVec S_ 1 := (fun x v => Host.reduce IntOp.andi x v reducesTo_S128_S_d0 h_S_) main_v16 main_c_5
  let main_v18 : IVec S_ 1 := andi main_v13 main_v17
  main_v18

def fn {F : FTy → Type} [FloatOps F] (main_arg0 : IVec S4096x70 32) (main_arg1 : IVec S4096x130 32) (main_arg2 : FVec F S1000000x64 .f32) (main_arg3 : FVec F S1000000x32 .f32) (main_arg4 : FVec F S2336x128 .f32) (main_arg5 : FVec F S128 .f32) : IVec S_ 1 :=
  let main_v0 : FVec F S1000000x64 .f32 := Host.absf main_arg2
  let main_cst : FVec F S_ .f32 := constant S_ .f32 0x7F800000#32
  let main_v1 : FVec F S1000000x64 .f32 := broadcastInDim S1000000x64 ![] bcast_S_S1000000x64 main_cst
  let main_v2 : IVec S1000000x64 1 := cmpf .olt main_v0 main_v1
  let main_c : IVec S_ 1 := constantI S_ 1 1#1
  let main_v3 : IVec S_ 1 := (fun x v => Host.reduce IntOp.andi x v reducesTo_S1000000x64_S_d0_1 h_S_) main_v2 main_c
  let main_v4 : FVec F S1000000x32 .f32 := Host.absf main_arg3
  let main_cst_0 : FVec F S_ .f32 := constant S_ .f32 0x7F800000#32
  let main_v5 : FVec F S1000000x32 .f32 := broadcastInDim S1000000x32 ![] bcast_S_S1000000x32 main_cst_0
  let main_v6 : IVec S1000000x32 1 := cmpf .olt main_v4 main_v5
  let main_c_1 : IVec S_ 1 := constantI S_ 1 1#1
  let main_v7 : IVec S_ 1 := (fun x v => Host.reduce IntOp.andi x v reducesTo_S1000000x32_S_d0_1 h_S_) main_v6 main_c_1
  let main_v8 : IVec S_ 1 := andi main_v3 main_v7
  let main_v9 : FVec F S2336x128 .f32 := Host.absf main_arg4
  let main_cst_2 : FVec F S_ .f32 := constant S_ .f32 0x7F800000#32
  let main_v10 : FVec F S2336x128 .f32 := broadcastInDim S2336x128 ![] bcast_S_S2336x128 main_cst_2
  let main_v11 : IVec S2336x128 1 := cmpf .olt main_v9 main_v10
  let main_c_3 : IVec S_ 1 := constantI S_ 1 1#1
  let main_v12 : IVec S_ 1 := (fun x v => Host.reduce IntOp.andi x v reducesTo_S2336x128_S_d0_1 h_S_) main_v11 main_c_3
  let main_v13 : IVec S_ 1 := andi main_v8 main_v12
  let main_v14 : FVec F S128 .f32 := Host.absf main_arg5
  let main_cst_4 : FVec F S_ .f32 := constant S_ .f32 0x7F800000#32
  let main_v15 : FVec F S128 .f32 := broadcastInDim S128 ![] bcast_S_S128 main_cst_4
  let main_v16 : IVec S128 1 := cmpf .olt main_v14 main_v15
  fn_part1 (F := F) main_v13 main_v16
-- ==== Kernel.lean ====
abbrev S4096x70 : Shape := ⟨2, ![4096, 70]⟩
abbrev S4096x130 : Shape := ⟨2, ![4096, 130]⟩
abbrev S1000000x64 : Shape := ⟨2, ![1000000, 64]⟩
abbrev S1000000x32 : Shape := ⟨2, ![1000000, 32]⟩
abbrev S2336x128 : Shape := ⟨2, ![2336, 128]⟩
abbrev S128 : Shape := ⟨1, ![128]⟩
abbrev S_ : Shape := ⟨0, ![]⟩
abbrev S4096x70x1 : Shape := ⟨3, ![4096, 70, 1]⟩
abbrev S4096x70x64 : Shape := ⟨3, ![4096, 70, 64]⟩
abbrev S4096x130x1 : Shape := ⟨3, ![4096, 130, 1]⟩
abbrev S4096x130x32 : Shape := ⟨3, ![4096, 130, 32]⟩
abbrev S4096x20x64 : Shape := ⟨3, ![4096, 20, 64]⟩
abbrev S4096x1280 : Shape := ⟨2, ![4096, 1280]⟩
abbrev S4096x50x64 : Shape := ⟨3, ![4096, 50, 64]⟩
abbrev S4096x30x32 : Shape := ⟨3, ![4096, 30, 32]⟩
abbrev S4096x960 : Shape := ⟨2, ![4096, 960]⟩
abbrev S4096x100x32 : Shape := ⟨3, ![4096, 100, 32]⟩
abbrev S1280x128 : Shape := ⟨2, ![1280, 128]⟩
abbrev S64x128 : Shape := ⟨2, ![64, 128]⟩
abbrev S960x128 : Shape := ⟨2, ![960, 128]⟩
abbrev S32x128 : Shape := ⟨2, ![32, 128]⟩
abbrev S1x128 : Shape := ⟨2, ![1, 128]⟩
abbrev S4096x128 : Shape := ⟨2, ![4096, 128]⟩
abbrev S128x1280 : Shape := ⟨2, ![128, 1280]⟩
abbrev S128x50x64 : Shape := ⟨3, ![128, 50, 64]⟩
abbrev S128x960 : Shape := ⟨2, ![128, 960]⟩
abbrev S128x100x32 : Shape := ⟨3, ![128, 100, 32]⟩
abbrev S128x128 : Shape := ⟨2, ![128, 128]⟩
abbrev S128x64 : Shape := ⟨2, ![128, 64]⟩
abbrev S128x32 : Shape := ⟨2, ![128, 32]⟩

abbrev nBuf : Space → Nat
  | .hbm => 42
  | .vmem => 15
  | .smem => 0
  | _ => 0

abbrev bufTy : (tb : Table) → Fin (tcTables nBuf tb) → BufTy
  | .hbm, ⟨0, _⟩ => ⟨S4096x70, .i32⟩
  | .hbm, ⟨1, _⟩ => ⟨S4096x130, .i32⟩
  | .hbm, ⟨2, _⟩ => ⟨S1000000x64, .f32⟩
  | .hbm, ⟨3, _⟩ => ⟨S1000000x32, .f32⟩
  | .hbm, ⟨4, _⟩ => ⟨S2336x128, .f32⟩
  | .hbm, ⟨5, _⟩ => ⟨S128, .f32⟩
  | .hbm, ⟨6, _⟩ => ⟨S_, .i32⟩
  | .hbm, ⟨7, _⟩ => ⟨S4096x70, .i32⟩
  | .hbm, ⟨8, _⟩ => ⟨S4096x70, .i1⟩
  | .hbm, ⟨9, _⟩ => ⟨S_, .i32⟩
  | .hbm, ⟨10, _⟩ => ⟨S4096x70, .i32⟩
  | .hbm, ⟨11, _⟩ => ⟨S4096x70, .i32⟩
  | .hbm, ⟨12, _⟩ => ⟨S4096x70, .i32⟩
  | .hbm, ⟨13, _⟩ => ⟨S4096x70x1, .i32⟩
  | .hbm, ⟨14, _⟩ => ⟨S4096x70x64, .f32⟩
  | .hbm, ⟨15, _⟩ => ⟨S_, .i32⟩
  | .hbm, ⟨16, _⟩ => ⟨S4096x130, .i32⟩
  | .hbm, ⟨17, _⟩ => ⟨S4096x130, .i1⟩
  | .hbm, ⟨18, _⟩ => ⟨S_, .i32⟩
  | .hbm, ⟨19, _⟩ => ⟨S4096x130, .i32⟩
  | .hbm, ⟨20, _⟩ => ⟨S4096x130, .i32⟩
  | .hbm, ⟨21, _⟩ => ⟨S4096x130, .i32⟩
  | .hbm, ⟨22, _⟩ => ⟨S4096x130x1, .i32⟩
  | .hbm, ⟨23, _⟩ => ⟨S4096x130x32, .f32⟩
  | .hbm, ⟨24, _⟩ => ⟨S4096x20x64, .f32⟩
  | .hbm, ⟨25, _⟩ => ⟨S4096x1280, .f32⟩
  | .hbm, ⟨26, _⟩ => ⟨S4096x1280, .bf16⟩
  | .hbm, ⟨27, _⟩ => ⟨S4096x50x64, .f32⟩
  | .hbm, ⟨28, _⟩ => ⟨S4096x30x32, .f32⟩
  | .hbm, ⟨29, _⟩ => ⟨S4096x960, .f32⟩
  | .hbm, ⟨30, _⟩ => ⟨S4096x960, .bf16⟩
  | .hbm, ⟨31, _⟩ => ⟨S4096x100x32, .f32⟩
  | .hbm, ⟨32, _⟩ => ⟨S1280x128, .f32⟩
  | .hbm, ⟨33, _⟩ => ⟨S1280x128, .bf16⟩
  | .hbm, ⟨34, _⟩ => ⟨S64x128, .f32⟩
  | .hbm, ⟨35, _⟩ => ⟨S64x128, .bf16⟩
  | .hbm, ⟨36, _⟩ => ⟨S960x128, .f32⟩
  | .hbm, ⟨37, _⟩ => ⟨S960x128, .bf16⟩
  | .hbm, ⟨38, _⟩ => ⟨S32x128, .f32⟩
  | .hbm, ⟨39, _⟩ => ⟨S32x128, .bf16⟩
  | .hbm, ⟨40, _⟩ => ⟨S1x128, .f32⟩
  | .hbm, ⟨41, _⟩ => ⟨S4096x128, .f32⟩
  | .local _ .vmem, ⟨0, _⟩ => ⟨S128x1280, .bf16⟩
  | .local _ .vmem, ⟨1, _⟩ => ⟨S128x1280, .bf16⟩
  | .local _ .vmem, ⟨2, _⟩ => ⟨S128x50x64, .f32⟩
  | .local _ .vmem, ⟨3, _⟩ => ⟨S128x50x64, .f32⟩
  | .local _ .vmem, ⟨4, _⟩ => ⟨S128x960, .bf16⟩
  | .local _ .vmem, ⟨5, _⟩ => ⟨S128x960, .bf16⟩
  | .local _ .vmem, ⟨6, _⟩ => ⟨S128x100x32, .f32⟩
  | .local _ .vmem, ⟨7, _⟩ => ⟨S128x100x32, .f32⟩
  | .local _ .vmem, ⟨8, _⟩ => ⟨S1280x128, .bf16⟩
  | .local _ .vmem, ⟨9, _⟩ => ⟨S64x128, .bf16⟩
  | .local _ .vmem, ⟨10, _⟩ => ⟨S960x128, .bf16⟩
  | .local _ .vmem, ⟨11, _⟩ => ⟨S32x128, .bf16⟩
  | .local _ .vmem, ⟨12, _⟩ => ⟨S1x128, .f32⟩
  | .local _ .vmem, ⟨13, _⟩ => ⟨S128x128, .f32⟩
  | .local _ .vmem, ⟨14, _⟩ => ⟨S128x128, .f32⟩
  | _, _ => ⟨S4096x70, .i32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | _, _ => false

abbrev semScoped : Fin 0 → Bool
  | ⟨_, h⟩ => absurd h (Nat.not_lt_zero _)

abbrev dmaSemScoped : Fin 15 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | _ => false

abbrev sig : RefSig :=
  ofTc nBuf bufTy 0 15 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_c : Ref sig .tc := ⟨.hbm, 6, rfl⟩
abbrev main_v0 : Ref sig .tc := ⟨.hbm, 7, rfl⟩
abbrev main_v1 : Ref sig .tc := ⟨.hbm, 8, rfl⟩
abbrev main_c_0 : Ref sig .tc := ⟨.hbm, 9, rfl⟩
abbrev main_v2 : Ref sig .tc := ⟨.hbm, 10, rfl⟩
abbrev main_v3 : Ref sig .tc := ⟨.hbm, 11, rfl⟩
abbrev main_v4 : Ref sig .tc := ⟨.hbm, 12, rfl⟩
abbrev main_v5 : Ref sig .tc := ⟨.hbm, 13, rfl⟩
abbrev main_v6 : Ref sig .tc := ⟨.hbm, 14, rfl⟩
abbrev main_c_1 : Ref sig .tc := ⟨.hbm, 15, rfl⟩
abbrev main_v7 : Ref sig .tc := ⟨.hbm, 16, rfl⟩
abbrev main_v8 : Ref sig .tc := ⟨.hbm, 17, rfl⟩
abbrev main_c_2 : Ref sig .tc := ⟨.hbm, 18, rfl⟩
abbrev main_v9 : Ref sig .tc := ⟨.hbm, 19, rfl⟩
abbrev main_v10 : Ref sig .tc := ⟨.hbm, 20, rfl⟩
abbrev main_v11 : Ref sig .tc := ⟨.hbm, 21, rfl⟩
abbrev main_v12 : Ref sig .tc := ⟨.hbm, 22, rfl⟩
abbrev main_v13 : Ref sig .tc := ⟨.hbm, 23, rfl⟩
abbrev main_v14 : Ref sig .tc := ⟨.hbm, 24, rfl⟩
abbrev main_v15 : Ref sig .tc := ⟨.hbm, 25, rfl⟩
abbrev main_v16 : Ref sig .tc := ⟨.hbm, 26, rfl⟩
abbrev main_v17 : Ref sig .tc := ⟨.hbm, 27, rfl⟩
abbrev main_v18 : Ref sig .tc := ⟨.hbm, 28, rfl⟩
abbrev main_v19 : Ref sig .tc := ⟨.hbm, 29, rfl⟩
abbrev main_v20 : Ref sig .tc := ⟨.hbm, 30, rfl⟩
abbrev main_v21 : Ref sig .tc := ⟨.hbm, 31, rfl⟩
abbrev main_v22 : Ref sig .tc := ⟨.hbm, 32, rfl⟩
abbrev main_v23 : Ref sig .tc := ⟨.hbm, 33, rfl⟩
abbrev main_v24 : Ref sig .tc := ⟨.hbm, 34, rfl⟩
abbrev main_v25 : Ref sig .tc := ⟨.hbm, 35, rfl⟩
abbrev main_v26 : Ref sig .tc := ⟨.hbm, 36, rfl⟩
abbrev main_v27 : Ref sig .tc := ⟨.hbm, 37, rfl⟩
abbrev main_v28 : Ref sig .tc := ⟨.hbm, 38, rfl⟩
abbrev main_v29 : Ref sig .tc := ⟨.hbm, 39, rfl⟩
abbrev main_v30 : Ref sig .tc := ⟨.hbm, 40, rfl⟩
abbrev main_v31 : Ref sig .tc := ⟨.hbm, 41, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg5_0 : Ref sig .tc := ⟨.vmem, 9, rfl⟩
abbrev cc0_stg6_0 : Ref sig .tc := ⟨.vmem, 10, rfl⟩
abbrev cc0_stg7_0 : Ref sig .tc := ⟨.vmem, 11, rfl⟩
abbrev cc0_stg8_0 : Ref sig .tc := ⟨.vmem, 12, rfl⟩
abbrev cc0_stg9_0 : Ref sig .tc := ⟨.vmem, 13, rfl⟩
abbrev cc0_stg9_1 : Ref sig .tc := ⟨.vmem, 14, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem5_0 : DmaSem sig := 9
abbrev cc0_sem6_0 : DmaSem sig := 10
abbrev cc0_sem7_0 : DmaSem sig := 11
abbrev cc0_sem8_0 : DmaSem sig := 12
abbrev cc0_sem9_0 : DmaSem sig := 13
abbrev cc0_sem9_1 : DmaSem sig := 14

abbrev nD : Nat := 1
abbrev τ : Topo := Topo.v7x

variable {F : FTy → Type} [FloatOps F]

abbrev grid0 : Pipeline.Grid := ⟨1, ![32], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_3 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

def cc0_transform_4 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_6 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_7 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_8 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_9 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S128x1280 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S128x50x64 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S128x960 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 2 → Memref sig .tc .vmem S128x100x32 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev stage0_4 : Fin 1 → Memref sig .tc .vmem S1280x128 .bf16 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false]

abbrev stage0_5 : Fin 1 → Memref sig .tc .vmem S64x128 .bf16 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false]

abbrev stage0_6 : Fin 1 → Memref sig .tc .vmem S960x128 .bf16 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![false]

abbrev stage0_7 : Fin 1 → Memref sig .tc .vmem S32x128 .bf16 := fun | 0 => Memref.whole cc0_stg7_0 | ⟨_ + 1, h⟩ => absurd h (Nat.not_lt.2 (Nat.le_add_left _ _))
abbrev sem0_7 : Fin 1 → DmaSem sig := fun | 0 => cc0_sem7_0 | ⟨_ + 1, h⟩ => absurd h (Nat.not_lt.2 (Nat.le_add_left _ _))
abbrev reads0_7 : Fin grid0.rank → Bool := ![false]

abbrev stage0_8 : Fin 1 → Memref sig .tc .vmem S1x128 .f32 := fun | 0 => Memref.whole cc0_stg8_0 | ⟨_ + 1, h⟩ => absurd h (Nat.not_lt.2 (Nat.le_add_left _ _))
abbrev sem0_8 : Fin 1 → DmaSem sig := fun | 0 => cc0_sem8_0 | ⟨_ + 1, h⟩ => absurd h (Nat.not_lt.2 (Nat.le_add_left _ _))
abbrev reads0_8 : Fin grid0.rank → Bool := ![false]

abbrev stage0_9 : Fin 2 → Memref sig .tc .vmem S128x128 .f32 := fun | 0 => Memref.whole cc0_stg9_0 | 1 => Memref.whole cc0_stg9_1 | ⟨_ + 2, h⟩ => absurd h (Nat.not_lt.2 (Nat.le_add_left _ _))
abbrev sem0_9 : Fin 2 → DmaSem sig := fun | 0 => cc0_sem9_0 | 1 => cc0_sem9_1 | ⟨_ + 2, h⟩ => absurd h (Nat.not_lt.2 (Nat.le_add_left _ _))
abbrev reads0_9 : Fin grid0.rank → Bool := ![true]

class Facts₀ : Prop where
  bcast_S_S4096x70 : S_.BroadcastsInDim S4096x70 (![] : Fin 0 → Fin S4096x70.rank)
  bcast_S4096x70_S4096x70x1_0_1 : S4096x70.BroadcastsInDim S4096x70x1 (![0, 1] : Fin 2 → Fin S4096x70x1.rank)
  bcast_S_S4096x130 : S_.BroadcastsInDim S4096x130 (![] : Fin 0 → Fin S4096x130.rank)
  bcast_S4096x130_S4096x130x1_0_1 : S4096x130.BroadcastsInDim S4096x130x1 (![0, 1] : Fin 2 → Fin S4096x130x1.rank)
  slices_S4096x70x64_S4096x20x64_0_0_0 : S4096x70x64.Slices ![0, 0, 0] S4096x20x64
  shapeCasts_S4096x20x64_S4096x1280 : S4096x20x64.ShapeCasts S4096x1280
  bitsLt_bf16_f32 : FTy.bits .bf16 < FTy.bits .f32
  slices_S4096x70x64_S4096x50x64_0_20_0 : S4096x70x64.Slices ![0, 20, 0] S4096x50x64
  slices_S4096x130x32_S4096x30x32_0_0_0 : S4096x130x32.Slices ![0, 0, 0] S4096x30x32
  shapeCasts_S4096x30x32_S4096x960 : S4096x30x32.ShapeCasts S4096x960
  slices_S4096x130x32_S4096x100x32_0_30_0 : S4096x130x32.Slices ![0, 30, 0] S4096x100x32
  slices_S2336x128_S1280x128_0_0 : S2336x128.Slices ![0, 0] S1280x128
  slices_S2336x128_S64x128_1280_0 : S2336x128.Slices ![1280, 0] S64x128
  slices_S2336x128_S960x128_1344_0 : S2336x128.Slices ![1344, 0] S960x128
  slices_S2336x128_S32x128_2304_0 : S2336x128.Slices ![2304, 0] S32x128
  shapeCasts_S128_S1x128 : S128.ShapeCasts S1x128
  inb_S128x1280_S128x1280_0_0 : ∀ a, (![0, 0] : Fin 2 → Nat) a + S128x1280.size a ≤ S128x1280.size a
  h_S128x1280 : 0 < S128x1280.numel
  shapeCasts_S128x1280_S128x1280 : S128x1280.ShapeCasts S128x1280
  inb_S1280x128_S1280x128_0_0 : ∀ a, (![0, 0] : Fin 2 → Nat) a + S1280x128.size a ≤ S1280x128.size a
  h_S1280x128 : 0 < S1280x128.numel
  shapeCasts_S1280x128_S1280x128 : S1280x128.ShapeCasts S1280x128
  inb_S128x50x64_S128x50x64_0_0_0 : ∀ a, (![0, 0, 0] : Fin 3 → Nat) a + S128x50x64.size a ≤ S128x50x64.size a
  h_S128x50x64 : 0 < S128x50x64.numel
  shapeCasts_S128x50x64_S128x50x64 : S128x50x64.ShapeCasts S128x50x64
  reduces_S128x50x64_S128x64 : S128x50x64.Reduces [1] S128x64
  inb_S64x128_S64x128_0_0 : ∀ a, (![0, 0] : Fin 2 → Nat) a + S64x128.size a ≤ S64x128.size a
  h_S64x128 : 0 < S64x128.numel
  shapeCasts_S64x128_S64x128 : S64x128.ShapeCasts S64x128
  inb_S128x960_S128x960_0_0 : ∀ a, (![0, 0] : Fin 2 → Nat) a + S128x960.size a ≤ S128x960.size a
  h_S128x960 : 0 < S128x960.numel
  shapeCasts_S128x960_S128x960 : S128x960.ShapeCasts S128x960
  inb_S960x128_S960x128_0_0 : ∀ a, (![0, 0] : Fin 2 → Nat) a + S960x128.size a ≤ S960x128.size a
  h_S960x128 : 0 < S960x128.numel
  shapeCasts_S960x128_S960x128 : S960x128.ShapeCasts S960x128
  inb_S128x100x32_S128x100x32_0_0_0 : ∀ a, (![0, 0, 0] : Fin 3 → Nat) a + S128x100x32.size a ≤ S128x100x32.size a
  h_S128x100x32 : 0 < S128x100x32.numel
  shapeCasts_S128x100x32_S128x100x32 : S128x100x32.ShapeCasts S128x100x32
  reduces_S128x100x32_S128x32 : S128x100x32.Reduces [1] S128x32
  inb_S32x128_S32x128_0_0 : ∀ a, (![0, 0] : Fin 2 → Nat) a + S32x128.size a ≤ S32x128.size a
  h_S32x128 : 0 < S32x128.numel
  shapeCasts_S32x128_S32x128 : S32x128.ShapeCasts S32x128
  inb_S1x128_S1x128_0_0 : ∀ a, (![0, 0] : Fin 2 → Nat) a + S1x128.size a ≤ S1x128.size a
  h_S1x128 : 0 < S1x128.numel
  shapeCasts_S1x128_S1x128 : S1x128.ShapeCasts S1x128
  broadcasts_S1x128_S128x128 : S1x128.Broadcasts S128x128
  inb_S128x128_S128x128_0_0 : ∀ a, (![0, 0] : Fin 2 → Nat) a + S128x128.size a ≤ S128x128.size a
  h_S128x128 : 0 < S128x128.numel
  gather_S1000000x64_S4096x70x1_S4096x70x64_2_0_n_n_0_2_164_wf : GatherDims.WF S1000000x64 S4096x70x1 S4096x70x64 [2] [0] [] [0] [] 2 ![1, 64]
  gather_S1000000x32_S4096x130x1_S4096x130x32_2_0_n_n_0_2_132_wf : GatherDims.WF S1000000x32 S4096x130x1 S4096x130x32 [2] [0] [] [0] [] 2 ![1, 32]
  dot_S128x1280_S1280x128_S128x128_1_0_0_1_n_n_wf : DotDims.WF S128x1280 S1280x128 S128x128 [1] [0] [0] [1] [] []
  dot_S128x64_S64x128_S128x128_1_0_0_1_n_n_wf : DotDims.WF S128x64 S64x128 S128x128 [1] [0] [0] [1] [] []
  dot_S128x960_S960x128_S128x128_1_0_0_1_n_n_wf : DotDims.WF S128x960 S960x128 S128x128 [1] [0] [0] [1] [] []
  dot_S128x32_S32x128_S128x128_1_0_0_1_n_n_wf : DotDims.WF S128x32 S32x128 S128x128 [1] [0] [0] [1] [] []
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S128x1280.size a ≤ S4096x1280.size a
  hwx0_0 : ∀ i : grid0.Coords, EltTy.bits .bf16 = 32 ∨ (Rect.block (s := S4096x1280) S128x1280.size (cc0_transform_0 i) (hinb0_0 i)).WholeWords (EltTy.packing .bf16)
  hstage0_1 : ∀ j, (stage0_1 j).IsWhole
  nbuf0_1 : grid0.bufCount reads0_1 false = 2
  hreads0_1 : ∀ i i' : grid0.Coords, (∀ a, reads0_1 a = true → i a = i' a) → cc0_transform_1 i = cc0_transform_1 i'
  hinb0_1 : ∀ (i : grid0.Coords) a, (cc0_transform_1 i a + 1) * S128x50x64.size a ≤ S4096x50x64.size a
  hwx0_1 : ∀ i : grid0.Coords, EltTy.bits .f32 = 32 ∨ (Rect.block (s := S4096x50x64) S128x50x64.size (cc0_transform_1 i) (hinb0_1 i)).WholeWords (EltTy.packing .f32)
  hstage0_2 : ∀ j, (stage0_2 j).IsWhole
  nbuf0_2 : grid0.bufCount reads0_2 false = 2
  hreads0_2 : ∀ i i' : grid0.Coords, (∀ a, reads0_2 a = true → i a = i' a) → cc0_transform_2 i = cc0_transform_2 i'
  hinb0_2 : ∀ (i : grid0.Coords) a, (cc0_transform_2 i a + 1) * S128x960.size a ≤ S4096x960.size a
  hwx0_2 : ∀ i : grid0.Coords, EltTy.bits .bf16 = 32 ∨ (Rect.block (s := S4096x960) S128x960.size (cc0_transform_2 i) (hinb0_2 i)).WholeWords (EltTy.packing .bf16)
  hstage0_3 : ∀ j, (stage0_3 j).IsWhole
  nbuf0_3 : grid0.bufCount reads0_3 false = 2
  hreads0_3 : ∀ i i' : grid0.Coords, (∀ a, reads0_3 a = true → i a = i' a) → cc0_transform_3 i = cc0_transform_3 i'
  hinb0_3 : ∀ (i : grid0.Coords) a, (cc0_transform_3 i a + 1) * S128x100x32.size a ≤ S4096x100x32.size a
  hwx0_3 : ∀ i : grid0.Coords, EltTy.bits .f32 = 32 ∨ (Rect.block (s := S4096x100x32) S128x100x32.size (cc0_transform_3 i) (hinb0_3 i)).WholeWords (EltTy.packing .f32)
  hstage0_4 : ∀ j, (stage0_4 j).IsWhole
  nbuf0_4 : grid0.bufCount reads0_4 true = 1
  hreads0_4 : ∀ i i' : grid0.Coords, (∀ a, reads0_4 a = true → i a = i' a) → cc0_transform_4 i = cc0_transform_4 i'
  hinb0_4 : ∀ (i : grid0.Coords) a, (cc0_transform_4 i a + 1) * S1280x128.size a ≤ S1280x128.size a
  hwx0_4 : ∀ i : grid0.Coords, EltTy.bits .bf16 = 32 ∨ (Rect.block (s := S1280x128) S1280x128.size (cc0_transform_4 i) (hinb0_4 i)).WholeWords (EltTy.packing .bf16)
  hstage0_5 : ∀ j, (stage0_5 j).IsWhole
  nbuf0_5 : grid0.bufCount reads0_5 true = 1
  hreads0_5 : ∀ i i' : grid0.Coords, (∀ a, reads0_5 a = true → i a = i' a) → cc0_transform_5 i = cc0_transform_5 i'
  hinb0_5 : ∀ (i : grid0.Coords) a, (cc0_transform_5 i a + 1) * S64x128.size a ≤ S64x128.size a
  hwx0_5 : ∀ i : grid0.Coords, EltTy.bits .bf16 = 32 ∨ (Rect.block (s := S64x128) S64x128.size (cc0_transform_5 i) (hinb0_5 i)).WholeWords (EltTy.packing .bf16)
  hstage0_6 : ∀ j, (stage0_6 j).IsWhole
  nbuf0_6 : grid0.bufCount reads0_6 true = 1
  hreads0_6 : ∀ i i' : grid0.Coords, (∀ a, reads0_6 a = true → i a = i' a) → cc0_transform_6 i = cc0_transform_6 i'
  hinb0_6 : ∀ (i : grid0.Coords) a, (cc0_transform_6 i a + 1) * S960x128.size a ≤ S960x128.size a
  hwx0_6 : ∀ i : grid0.Coords, EltTy.bits .bf16 = 32 ∨ (Rect.block (s := S960x128) S960x128.size (cc0_transform_6 i) (hinb0_6 i)).WholeWords (EltTy.packing .bf16)
  hstage0_7 : ∀ j, (stage0_7 j).IsWhole
  nbuf0_7 : grid0.bufCount reads0_7 true = 1
  hreads0_7 : ∀ i i' : grid0.Coords, (∀ a, reads0_7 a = true → i a = i' a) → cc0_transform_7 i = cc0_transform_7 i'
  hinb0_7 : ∀ (i : grid0.Coords) a, (cc0_transform_7 i a + 1) * S32x128.size a ≤ S32x128.size a
  hwx0_7 : ∀ i : grid0.Coords, EltTy.bits .bf16 = 32 ∨ (Rect.block (s := S32x128) S32x128.size (cc0_transform_7 i) (hinb0_7 i)).WholeWords (EltTy.packing .bf16)
  hstage0_8 : ∀ j, (stage0_8 j).IsWhole
  nbuf0_8 : grid0.bufCount reads0_8 true = 1
  hreads0_8 : ∀ i i' : grid0.Coords, (∀ a, reads0_8 a = true → i a = i' a) → cc0_transform_8 i = cc0_transform_8 i'
  hinb0_8 : ∀ (i : grid0.Coords) a, (cc0_transform_8 i a + 1) * S1x128.size a ≤ S1x128.size a
  hwx0_8 : ∀ i : grid0.Coords, EltTy.bits .f32 = 32 ∨ (Rect.block (s := S1x128) S1x128.size (cc0_transform_8 i) (hinb0_8 i)).WholeWords (EltTy.packing .f32)
  hstage0_9 : ∀ j, (stage0_9 j).IsWhole
  nbuf0_9 : grid0.bufCount reads0_9 false = 2
  hreads0_9 : ∀ i i' : grid0.Coords, (∀ a, reads0_9 a = true → i a = i' a) → cc0_transform_9 i = cc0_transform_9 i'
  hinb0_9 : ∀ (i : grid0.Coords) a, (cc0_transform_9 i a + 1) * S128x128.size a ≤ S4096x128.size a
  hwx0_9 : ∀ i : grid0.Coords, EltTy.bits .f32 = 32 ∨ (Rect.block (s := S4096x128) S128x128.size (cc0_transform_9 i) (hinb0_9 i)).WholeWords (EltTy.packing .f32)

variable [Facts₀]

def gather_S1000000x64_S4096x70x1_S4096x70x64_2_0_n_n_0_2_164 : GatherDims S1000000x64 S4096x70x1 S4096x70x64 where
  offsetDims := [2]
  collapsedSliceDims := [0]
  operandBatchingDims := []
  startIndicesBatchingDims := []
  startIndexMap := [0]
  indexVectorDim := 2
  sliceSizes := ![1, 64]
  wf := gather_S1000000x64_S4096x70x1_S4096x70x64_2_0_n_n_0_2_164_wf
def gather_S1000000x32_S4096x130x1_S4096x130x32_2_0_n_n_0_2_132 : GatherDims S1000000x32 S4096x130x1 S4096x130x32 where
  offsetDims := [2]
  collapsedSliceDims := [0]
  operandBatchingDims := []
  startIndicesBatchingDims := []
  startIndexMap := [0]
  indexVectorDim := 2
  sliceSizes := ![1, 32]
  wf := gather_S1000000x32_S4096x130x1_S4096x130x32_2_0_n_n_0_2_132_wf
def dot_S128x1280_S1280x128_S128x128_1_0_0_1_n_n : DotDims S128x1280 S1280x128 S128x128 where
  lhsContracting := [1]
  rhsContracting := [0]
  lhsNonContracting := [0]
  rhsNonContracting := [1]
  lhsBatch := []
  rhsBatch := []
  wf := dot_S128x1280_S1280x128_S128x128_1_0_0_1_n_n_wf
def dot_S128x64_S64x128_S128x128_1_0_0_1_n_n : DotDims S128x64 S64x128 S128x128 where
  lhsContracting := [1]
  rhsContracting := [0]
  lhsNonContracting := [0]
  rhsNonContracting := [1]
  lhsBatch := []
  rhsBatch := []
  wf := dot_S128x64_S64x128_S128x128_1_0_0_1_n_n_wf
def dot_S128x960_S960x128_S128x128_1_0_0_1_n_n : DotDims S128x960 S960x128 S128x128 where
  lhsContracting := [1]
  rhsContracting := [0]
  lhsNonContracting := [0]
  rhsNonContracting := [1]
  lhsBatch := []
  rhsBatch := []
  wf := dot_S128x960_S960x128_S128x128_1_0_0_1_n_n_wf
def dot_S128x32_S32x128_S128x128_1_0_0_1_n_n : DotDims S128x32 S32x128 S128x128 where
  lhsContracting := [1]
  rhsContracting := [0]
  lhsNonContracting := [0]
  rhsNonContracting := [1]
  lhsBatch := []
  rhsBatch := []
  wf := dot_S128x32_S32x128_S128x128_1_0_0_1_n_n_wf

abbrev win0_0 : Pipeline.Window sig grid0 :=
  Pipeline.Window.ofSpec (Memref.whole main_v16) S128x1280.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_v17) S128x50x64.size cc0_transform_1 reads0_1 false false 2 stage0_1 sem0_1
    hrank0 hreads0_1 hinb0_1 nbuf0_1 (Memref.isWhole_whole _) hwx0_1 hstage0_1

abbrev win0_2 : Pipeline.Window sig grid0 :=
  Pipeline.Window.ofSpec (Memref.whole main_v20) S128x960.size cc0_transform_2 reads0_2 false false 2 stage0_2 sem0_2
    hrank0 hreads0_2 hinb0_2 nbuf0_2 (Memref.isWhole_whole _) hwx0_2 hstage0_2

abbrev win0_3 : Pipeline.Window sig grid0 :=
  Pipeline.Window.ofSpec (Memref.whole main_v21) S128x100x32.size cc0_transform_3 reads0_3 false false 2 stage0_3 sem0_3
    hrank0 hreads0_3 hinb0_3 nbuf0_3 (Memref.isWhole_whole _) hwx0_3 hstage0_3

abbrev win0_4 : Pipeline.Window sig grid0 :=
  Pipeline.Window.ofSpec (Memref.whole main_v23) S1280x128.size cc0_transform_4 reads0_4 false true 1 stage0_4 sem0_4
    hrank0 hreads0_4 hinb0_4 nbuf0_4 (Memref.isWhole_whole _) hwx0_4 hstage0_4

abbrev win0_5 : Pipeline.Window sig grid0 :=
  Pipeline.Window.ofSpec (Memref.whole main_v25) S64x128.size cc0_transform_5 reads0_5 false true 1 stage0_5 sem0_5
    hrank0 hreads0_5 hinb0_5 nbuf0_5 (Memref.isWhole_whole _) hwx0_5 hstage0_5

abbrev win0_6 : Pipeline.Window sig grid0 :=
  Pipeline.Window.ofSpec (Memref.whole main_v27) S960x128.size cc0_transform_6 reads0_6 false true 1 stage0_6 sem0_6
    hrank0 hreads0_6 hinb0_6 nbuf0_6 (Memref.isWhole_whole _) hwx0_6 hstage0_6

abbrev win0_7 : Pipeline.Window sig grid0 :=
  Pipeline.Window.ofSpec (Memref.whole main_v29) S32x128.size cc0_transform_7 reads0_7 false true 1 stage0_7 sem0_7
    hrank0 hreads0_7 hinb0_7 nbuf0_7 (Memref.isWhole_whole _) hwx0_7 hstage0_7

abbrev win0_8 : Pipeline.Window sig grid0 :=
  Pipeline.Window.ofSpec (Memref.whole main_v30) S1x128.size cc0_transform_8 reads0_8 false true 1 stage0_8 sem0_8
    hrank0 hreads0_8 hinb0_8 nbuf0_8 (Memref.isWhole_whole _) hwx0_8 hstage0_8

abbrev win0_9 : Pipeline.Window sig grid0 :=
  Pipeline.Window.ofSpec (Memref.whole main_v31) S128x128.size cc0_transform_9 reads0_9 true false 2 stage0_9 sem0_9
    hrank0 hreads0_9 hinb0_9 nbuf0_9 (Memref.isWhole_whole _) hwx0_9 hstage0_9

abbrev win0 : Fin 10 → Pipeline.Window sig grid0 := fun | 0 => win0_0 | 1 => win0_1 | 2 => win0_2 | 3 => win0_3 | 4 => win0_4 | 5 => win0_5 | 6 => win0_6 | 7 => win0_7 | 8 => win0_8 | 9 => win0_9 | ⟨_ + 10, h⟩ => absurd h (Nat.not_lt.2 (Nat.le_add_left _ _))
abbrev spec0 : Fin 10 → Pipeline.WinSpec sig grid0.rank := fun w => (win0 w).toWinSpec

class Facts : Prop extends Facts₀ where

variable [Facts]
-- ==== ReferenceIdeal.lean ====
abbrev S4096x70 : Shape := ⟨2, ![4096, 70]⟩
abbrev S4096x130 : Shape := ⟨2, ![4096, 130]⟩
abbrev S1000000x64 : Shape := ⟨2, ![1000000, 64]⟩
abbrev S1000000x32 : Shape := ⟨2, ![1000000, 32]⟩
abbrev S2336x128 : Shape := ⟨2, ![2336, 128]⟩
abbrev S128 : Shape := ⟨1, ![128]⟩
abbrev S_ : Shape := ⟨0, ![]⟩
abbrev S4096x70x1 : Shape := ⟨3, ![4096, 70, 1]⟩
abbrev S4096x70x64 : Shape := ⟨3, ![4096, 70, 64]⟩
abbrev S4096x130x1 : Shape := ⟨3, ![4096, 130, 1]⟩
abbrev S4096x130x32 : Shape := ⟨3, ![4096, 130, 32]⟩
abbrev S4096x20x64 : Shape := ⟨3, ![4096, 20, 64]⟩
abbrev S4096x1280 : Shape := ⟨2, ![4096, 1280]⟩
abbrev S4096x50x64 : Shape := ⟨3, ![4096, 50, 64]⟩
abbrev S4096x64 : Shape := ⟨2, ![4096, 64]⟩
abbrev S4096x1x64 : Shape := ⟨3, ![4096, 1, 64]⟩
abbrev S4096x30x32 : Shape := ⟨3, ![4096, 30, 32]⟩
abbrev S4096x960 : Shape := ⟨2, ![4096, 960]⟩
abbrev S4096x100x32 : Shape := ⟨3, ![4096, 100, 32]⟩
abbrev S4096x32 : Shape := ⟨2, ![4096, 32]⟩
abbrev S4096x1x32 : Shape := ⟨3, ![4096, 1, 32]⟩
abbrev S4096x2336 : Shape := ⟨2, ![4096, 2336]⟩
abbrev S4096x128 : Shape := ⟨2, ![4096, 128]⟩
abbrev S1x128 : Shape := ⟨2, ![1, 128]⟩

abbrev nBuf : Space → Nat
  | .hbm => 52
  | .vmem => 0
  | .smem => 0
  | _ => 0

abbrev bufTy : (tb : Table) → Fin (tcTables nBuf tb) → BufTy
  | .hbm, ⟨0, _⟩ => ⟨S4096x70, .i32⟩
  | .hbm, ⟨1, _⟩ => ⟨S4096x130, .i32⟩
  | .hbm, ⟨2, _⟩ => ⟨S1000000x64, .f32⟩
  | .hbm, ⟨3, _⟩ => ⟨S1000000x32, .f32⟩
  | .hbm, ⟨4, _⟩ => ⟨S2336x128, .f32⟩
  | .hbm, ⟨5, _⟩ => ⟨S128, .f32⟩
  | .hbm, ⟨6, _⟩ => ⟨S_, .i32⟩
  | .hbm, ⟨7, _⟩ => ⟨S4096x70, .i32⟩
  | .hbm, ⟨8, _⟩ => ⟨S4096x70, .i1⟩
  | .hbm, ⟨9, _⟩ => ⟨S_, .i32⟩
  | .hbm, ⟨10, _⟩ => ⟨S4096x70, .i32⟩
  | .hbm, ⟨11, _⟩ => ⟨S4096x70, .i32⟩
  | .hbm, ⟨12, _⟩ => ⟨S4096x70, .i32⟩
  | .hbm, ⟨13, _⟩ => ⟨S4096x70x1, .i32⟩
  | .hbm, ⟨14, _⟩ => ⟨S4096x70x64, .f32⟩
  | .hbm, ⟨15, _⟩ => ⟨S_, .i32⟩
  | .hbm, ⟨16, _⟩ => ⟨S4096x130, .i32⟩
  | .hbm, ⟨17, _⟩ => ⟨S4096x130, .i1⟩
  | .hbm, ⟨18, _⟩ => ⟨S_, .i32⟩
  | .hbm, ⟨19, _⟩ => ⟨S4096x130, .i32⟩
  | .hbm, ⟨20, _⟩ => ⟨S4096x130, .i32⟩
  | .hbm, ⟨21, _⟩ => ⟨S4096x130, .i32⟩
  | .hbm, ⟨22, _⟩ => ⟨S4096x130x1, .i32⟩
  | .hbm, ⟨23, _⟩ => ⟨S4096x130x32, .f32⟩
  | .hbm, ⟨24, _⟩ => ⟨S4096x20x64, .f32⟩
  | .hbm, ⟨25, _⟩ => ⟨S4096x1280, .f32⟩
  | .hbm, ⟨26, _⟩ => ⟨S4096x50x64, .f32⟩
  | .hbm, ⟨27, _⟩ => ⟨S_, .f32⟩
  | .hbm, ⟨28, _⟩ => ⟨S4096x64, .f32⟩
  | .hbm, ⟨29, _⟩ => ⟨S4096x1x64, .f32⟩
  | .hbm, ⟨30, _⟩ => ⟨S_, .f32⟩
  | .hbm, ⟨31, _⟩ => ⟨S4096x1x64, .f32⟩
  | .hbm, ⟨32, _⟩ => ⟨S4096x1x64, .f32⟩
  | .hbm, ⟨33, _⟩ => ⟨S4096x64, .f32⟩
  | .hbm, ⟨34, _⟩ => ⟨S4096x30x32, .f32⟩
  | .hbm, ⟨35, _⟩ => ⟨S4096x960, .f32⟩
  | .hbm, ⟨36, _⟩ => ⟨S4096x100x32, .f32⟩
  | .hbm, ⟨37, _⟩ => ⟨S_, .f32⟩
  | .hbm, ⟨38, _⟩ => ⟨S4096x32, .f32⟩
  | .hbm, ⟨39, _⟩ => ⟨S4096x1x32, .f32⟩
  | .hbm, ⟨40, _⟩ => ⟨S_, .f32⟩
  | .hbm, ⟨41, _⟩ => ⟨S4096x1x32, .f32⟩
  | .hbm, ⟨42, _⟩ => ⟨S4096x1x32, .f32⟩
  | .hbm, ⟨43, _⟩ => ⟨S4096x32, .f32⟩
  | .hbm, ⟨44, _⟩ => ⟨S4096x2336, .f32⟩
  | .hbm, ⟨45, _⟩ => ⟨S4096x128, .f32⟩
  | .hbm, ⟨46, _⟩ => ⟨S1x128, .f32⟩
  | .hbm, ⟨47, _⟩ => ⟨S4096x128, .f32⟩
  | .hbm, ⟨48, _⟩ => ⟨S4096x128, .f32⟩
  | .hbm, ⟨49, _⟩ => ⟨S_, .f32⟩
  | .hbm, ⟨50, _⟩ => ⟨S4096x128, .f32⟩
  | .hbm, ⟨51, _⟩ => ⟨S4096x128, .f32⟩
  | _, _ => ⟨S4096x70, .i32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_c : Ref sig .tc := ⟨.hbm, 6, rfl⟩
abbrev main_v0 : Ref sig .tc := ⟨.hbm, 7, rfl⟩
abbrev main_v1 : Ref sig .tc := ⟨.hbm, 8, rfl⟩
abbrev main_c_0 : Ref sig .tc := ⟨.hbm, 9, rfl⟩
abbrev main_v2 : Ref sig .tc := ⟨.hbm, 10, rfl⟩
abbrev main_v3 : Ref sig .tc := ⟨.hbm, 11, rfl⟩
abbrev main_v4 : Ref sig .tc := ⟨.hbm, 12, rfl⟩
abbrev main_v5 : Ref sig .tc := ⟨.hbm, 13, rfl⟩
abbrev main_v6 : Ref sig .tc := ⟨.hbm, 14, rfl⟩
abbrev main_c_1 : Ref sig .tc := ⟨.hbm, 15, rfl⟩
abbrev main_v7 : Ref sig .tc := ⟨.hbm, 16, rfl⟩
abbrev main_v8 : Ref sig .tc := ⟨.hbm, 17, rfl⟩
abbrev main_c_2 : Ref sig .tc := ⟨.hbm, 18, rfl⟩
abbrev main_v9 : Ref sig .tc := ⟨.hbm, 19, rfl⟩
abbrev main_v10 : Ref sig .tc := ⟨.hbm, 20, rfl⟩
abbrev main_v11 : Ref sig .tc := ⟨.hbm, 21, rfl⟩
abbrev main_v12 : Ref sig .tc := ⟨.hbm, 22, rfl⟩
abbrev main_v13 : Ref sig .tc := ⟨.hbm, 23, rfl⟩
abbrev main_v14 : Ref sig .tc := ⟨.hbm, 24, rfl⟩
abbrev main_v15 : Ref sig .tc := ⟨.hbm, 25, rfl⟩
abbrev main_v16 : Ref sig .tc := ⟨.hbm, 26, rfl⟩
abbrev main_cst : Ref sig .tc := ⟨.hbm, 27, rfl⟩
abbrev main_v17 : Ref sig .tc := ⟨.hbm, 28, rfl⟩
abbrev main_v18 : Ref sig .tc := ⟨.hbm, 29, rfl⟩
abbrev main_cst_3 : Ref sig .tc := ⟨.hbm, 30, rfl⟩
abbrev main_v19 : Ref sig .tc := ⟨.hbm, 31, rfl⟩
abbrev main_v20 : Ref sig .tc := ⟨.hbm, 32, rfl⟩
abbrev main_v21 : Ref sig .tc := ⟨.hbm, 33, rfl⟩
abbrev main_v22 : Ref sig .tc := ⟨.hbm, 34, rfl⟩
abbrev main_v23 : Ref sig .tc := ⟨.hbm, 35, rfl⟩
abbrev main_v24 : Ref sig .tc := ⟨.hbm, 36, rfl⟩
abbrev main_cst_4 : Ref sig .tc := ⟨.hbm, 37, rfl⟩
abbrev main_v25 : Ref sig .tc := ⟨.hbm, 38, rfl⟩
abbrev main_v26 : Ref sig .tc := ⟨.hbm, 39, rfl⟩
abbrev main_cst_5 : Ref sig .tc := ⟨.hbm, 40, rfl⟩
abbrev main_v27 : Ref sig .tc := ⟨.hbm, 41, rfl⟩
abbrev main_v28 : Ref sig .tc := ⟨.hbm, 42, rfl⟩
abbrev main_v29 : Ref sig .tc := ⟨.hbm, 43, rfl⟩
abbrev main_v30 : Ref sig .tc := ⟨.hbm, 44, rfl⟩
abbrev main_v31 : Ref sig .tc := ⟨.hbm, 45, rfl⟩
abbrev main_v32 : Ref sig .tc := ⟨.hbm, 46, rfl⟩
abbrev main_v33 : Ref sig .tc := ⟨.hbm, 47, rfl⟩
abbrev main_v34 : Ref sig .tc := ⟨.hbm, 48, rfl⟩
abbrev main_call0_cst : Ref sig .tc := ⟨.hbm, 49, rfl⟩
abbrev main_call0_v0 : Ref sig .tc := ⟨.hbm, 50, rfl⟩
abbrev main_v35 : Ref sig .tc := ⟨.hbm, 51, rfl⟩

abbrev nD : Nat := 1
abbrev τ : Topo := Topo.v7x

variable {F : FTy → Type} [FloatOps F]

class Facts₀ : Prop where
  bcast_S_S4096x70 : S_.BroadcastsInDim S4096x70 (![] : Fin 0 → Fin S4096x70.rank)
  bcast_S4096x70_S4096x70x1_0_1 : S4096x70.BroadcastsInDim S4096x70x1 (![0, 1] : Fin 2 → Fin S4096x70x1.rank)
  bcast_S_S4096x130 : S_.BroadcastsInDim S4096x130 (![] : Fin 0 → Fin S4096x130.rank)
  bcast_S4096x130_S4096x130x1_0_1 : S4096x130.BroadcastsInDim S4096x130x1 (![0, 1] : Fin 2 → Fin S4096x130x1.rank)
  slices_S4096x70x64_S4096x20x64_0_0_0 : S4096x70x64.Slices ![0, 0, 0] S4096x20x64
  shapeCasts_S4096x20x64_S4096x1280 : S4096x20x64.ShapeCasts S4096x1280
  slices_S4096x70x64_S4096x50x64_0_20_0 : S4096x70x64.Slices ![0, 20, 0] S4096x50x64
  reducesTo_S4096x50x64_S4096x64_d1 : S4096x50x64.ReducesTo [1] S4096x64
  h_S_ : 0 < S_.numel
  bcast_S4096x64_S4096x1x64_0_2 : S4096x64.BroadcastsInDim S4096x1x64 (![0, 2] : Fin 2 → Fin S4096x1x64.rank)
  bcast_S_S4096x1x64 : S_.BroadcastsInDim S4096x1x64 (![] : Fin 0 → Fin S4096x1x64.rank)
  shapeCasts_S4096x1x64_S4096x64 : S4096x1x64.ShapeCasts S4096x64
  slices_S4096x130x32_S4096x30x32_0_0_0 : S4096x130x32.Slices ![0, 0, 0] S4096x30x32
  shapeCasts_S4096x30x32_S4096x960 : S4096x30x32.ShapeCasts S4096x960
  slices_S4096x130x32_S4096x100x32_0_30_0 : S4096x130x32.Slices ![0, 30, 0] S4096x100x32
  reducesTo_S4096x100x32_S4096x32_d1 : S4096x100x32.ReducesTo [1] S4096x32
  bcast_S4096x32_S4096x1x32_0_2 : S4096x32.BroadcastsInDim S4096x1x32 (![0, 2] : Fin 2 → Fin S4096x1x32.rank)
  bcast_S_S4096x1x32 : S_.BroadcastsInDim S4096x1x32 (![] : Fin 0 → Fin S4096x1x32.rank)
  shapeCasts_S4096x1x32_S4096x32 : S4096x1x32.ShapeCasts S4096x32
  concatenates_S4096x1280_S4096x64_S4096x960_S4096x32_S4096x2336_d1 : Shape.Concatenates [S4096x1280, S4096x64, S4096x960, S4096x32] S4096x2336 1
  bcast_S128_S1x128_1 : S128.BroadcastsInDim S1x128 (![1] : Fin 1 → Fin S1x128.rank)
  bcast_S1x128_S4096x128_0_1 : S1x128.BroadcastsInDim S4096x128 (![0, 1] : Fin 2 → Fin S4096x128.rank)
  bcast_S_S4096x128 : S_.BroadcastsInDim S4096x128 (![] : Fin 0 → Fin S4096x128.rank)
  gather_S1000000x64_S4096x70x1_S4096x70x64_2_0_n_n_0_2_164_wf : GatherDims.WF S1000000x64 S4096x70x1 S4096x70x64 [2] [0] [] [0] [] 2 ![1, 64]
  gather_S1000000x32_S4096x130x1_S4096x130x32_2_0_n_n_0_2_132_wf : GatherDims.WF S1000000x32 S4096x130x1 S4096x130x32 [2] [0] [] [0] [] 2 ![1, 32]
  dot_S4096x2336_S2336x128_S4096x128_1_0_0_1_n_n_wf : DotDims.WF S4096x2336 S2336x128 S4096x128 [1] [0] [0] [1] [] []

variable [Facts₀]

def gather_S1000000x64_S4096x70x1_S4096x70x64_2_0_n_n_0_2_164 : GatherDims S1000000x64 S4096x70x1 S4096x70x64 where
  offsetDims := [2]
  collapsedSliceDims := [0]
  operandBatchingDims := []
  startIndicesBatchingDims := []
  startIndexMap := [0]
  indexVectorDim := 2
  sliceSizes := ![1, 64]
  wf := gather_S1000000x64_S4096x70x1_S4096x70x64_2_0_n_n_0_2_164_wf
def gather_S1000000x32_S4096x130x1_S4096x130x32_2_0_n_n_0_2_132 : GatherDims S1000000x32 S4096x130x1 S4096x130x32 where
  offsetDims := [2]
  collapsedSliceDims := [0]
  operandBatchingDims := []
  startIndicesBatchingDims := []
  startIndexMap := [0]
  indexVectorDim := 2
  sliceSizes := ![1, 32]
  wf := gather_S1000000x32_S4096x130x1_S4096x130x32_2_0_n_n_0_2_132_wf
def dot_S4096x2336_S2336x128_S4096x128_1_0_0_1_n_n : DotDims S4096x2336 S2336x128 S4096x128 where
  lhsContracting := [1]
  rhsContracting := [0]
  lhsNonContracting := [0]
  rhsNonContracting := [1]
  lhsBatch := []
  rhsBatch := []
  wf := dot_S4096x2336_S2336x128_S4096x128_1_0_0_1_n_n_wf

class Facts : Prop extends Facts₀ where

variable [Facts]
-- ==== Proof.LibPlainMatmul.lean ====
/-
  A plain matrix product read at an index, over the extended reals.

  For dimension numbers that contract the left operand's axis 1 with the right operand's axis 0, keep the left
  operand's axis 0 and the right operand's axis 1, and have no batch axes, entry `(p, q)` of the product accumulated
  into the zero matrix is `∑ₖ lhs (p, k) * rhs (k, q)`: the contraction index, a one-axis multi-index, is its one
  coordinate, and the operand indices at `(p, q)` and `k` are `(p, k)` and `(k, q)`.
-/
import Idealize.ShloMosaic.Lib.ValueIdx
import Idealize.ShloMosaic.PureOps.Ideal.Laws

noncomputable section

open scoped BigOperators

namespace Idealize.ShloMosaic.PlainMatmul

open Idealize.ShloMosaic Idealize.ShloMosaic.ValueIdx

variable {M K N : Nat} (d : DotDims ⟨2, ![M, K]⟩ ⟨2, ![K, N]⟩ ⟨2, ![M, N]⟩)
  (hlc : d.lhsContracting = [1]) (hrc : d.rhsContracting = [0])
  (hln : d.lhsNonContracting = [0]) (hrn : d.rhsNonContracting = [1])
  (hlb : d.lhsBatch = []) (hrb : d.rhsBatch = [])

include hln hlb in
/-- The left operand's row coordinate is the result's row coordinate. -/
theorem lhsIdx_row (j : (⟨2, ![M, N]⟩ : Shape).Idx) (k : d.contr.Idx) : (d.lhsIdx j k 0).val = (j 0).val := by
  have hb : (0 : Fin (⟨2, ![M, K]⟩ : Shape).rank) ∉ d.lhsBatch := by rw [hlb]; exact List.not_mem_nil
  have hn : (0 : Fin (⟨2, ![M, K]⟩ : Shape).rank) ∈ d.lhsNonContracting := by rw [hln]; exact List.mem_singleton.mpr rfl
  unfold DotDims.lhsIdx
  rw [dif_neg hb, dif_pos hn]
  simp only [Fin.val_cast]
  have key : ∀ (a b : Nat) (ha : a < (⟨2, ![M, N]⟩ : Shape).rank) (hb : b < (⟨2, ![M, N]⟩ : Shape).rank), a = b →
      (j ⟨a, ha⟩).val = (j ⟨b, hb⟩).val := fun a b ha hb h => by subst h; rfl
  exact key _ _ _ _ (by simp [hlb, hln])

include hrn hrb hln hlb in
/-- The right operand's column coordinate is the result's column coordinate. -/
theorem rhsIdx_col (j : (⟨2, ![M, N]⟩ : Shape).Idx) (k : d.contr.Idx) : (d.rhsIdx j k 1).val = (j 1).val := by
  have hb : (1 : Fin (⟨2, ![K, N]⟩ : Shape).rank) ∉ d.rhsBatch := by rw [hrb]; exact List.not_mem_nil
  have hn : (1 : Fin (⟨2, ![K, N]⟩ : Shape).rank) ∈ d.rhsNonContracting := by rw [hrn]; exact List.mem_singleton.mpr rfl
  unfold DotDims.rhsIdx
  rw [dif_neg hb, dif_pos hn]
  simp only [Fin.val_cast]
  have key : ∀ (a b : Nat) (ha : a < (⟨2, ![M, N]⟩ : Shape).rank) (hb : b < (⟨2, ![M, N]⟩ : Shape).rank), a = b →
      (j ⟨a, ha⟩).val = (j ⟨b, hb⟩).val := fun a b ha hb h => by subst h; rfl
  exact key _ _ _ _ (by simp [hlb, hln, hrn])

include hlc in
theorem contr_rank : d.contr.rank = 1 := by rw [d.rank_contr, hlc]; rfl

include hlc in
theorem contr_size (h0 : 0 < d.contr.rank) : d.contr.size ⟨0, h0⟩ = K := by
  have h1 : 0 < d.lhsContracting.length := by rw [hlc]; exact Nat.one_pos
  have e := d.size_contr 0 h1
  refine e.trans ?_
  have : d.lhsContracting[0] = (1 : Fin (⟨2, ![M, K]⟩ : Shape).rank) := by simp [hlc]
  rw [this]
  rfl

include hlc hrc hln hrn hlb hrb in
/-- ENTRY `(p, q)` OF A PLAIN PRODUCT INTO THE ZERO MATRIX: `∑ₖ lhs (p, k) * rhs (k, q)`. -/
theorem matmul_zero_apply {φ₁ φ₂ : FTy} (prec : Option ContractPrecision)
    (lhs : FVec Ideal ⟨2, ![M, K]⟩ φ₁) (rhs : FVec Ideal ⟨2, ![K, N]⟩ φ₂) (p : Fin M) (q : Fin N) :
    FloatOps.matmul d prec lhs rhs (constant ⟨2, ![M, N]⟩ .f32 0x00000000#32) (ix2 p q)
      = ∑ k : Fin K, lhs (ix2 p k) * rhs (ix2 k q) := by
  rw [Ideal.matmul_constant_zero_apply]
  have hr : d.contr.rank = 1 := contr_rank d hlc
  have hs : d.contr.size ⟨0, by omega⟩ = K := contr_size d hlc _
  rw [← Equiv.sum_comp (contrEquiv1 d K hr hs).symm]
  refine Finset.sum_congr rfl fun k _ => ?_
  have hl : d.lhsIdx (ix2 p q) ((contrEquiv1 d K hr hs).symm k) = ix2 p k := by
    funext a
    apply Fin.ext
    match a with
    | ⟨0, _⟩ => exact lhsIdx_row d hln hlb (ix2 p q) _
    | ⟨1, _⟩ =>
      exact (d.lhsIdx_val_of_single (cl := 1) hlc (ix2 p q) _).trans (contrEquiv1_symm_val d K hr hs k)
  have hr' : d.rhsIdx (ix2 p q) ((contrEquiv1 d K hr hs).symm k) = ix2 k q := by
    funext a
    apply Fin.ext
    match a with
    | ⟨0, _⟩ =>
      exact (d.rhsIdx_val_of_single (cr := 0) hrc (ix2 p q) _).trans (contrEquiv1_symm_val d K hr hs k)
    | ⟨1, _⟩ => exact rhsIdx_col d hln hrn hlb hrb (ix2 p q) _
  rw [hl, hr']

end Idealize.ShloMosaic.PlainMatmul
-- ==== Proof.LibAxisLayout.lean ====
/-
  Three-axis layout operations and single-axis reductions read at an index given by coordinates.

  A reduction of an [a, b, c] array along its middle or last axis leaves an [a, c] or [a, b] array; kept as a
  unit axis it is re-laid as [a, 1, c] or [a, b, 1] and broadcast back to [a, b, c]. Read at (i, j, k) each cast
  returns the operand's entry at the coordinates that remain — a unit coordinate is zero, so the row-major
  position is unchanged — and each broadcast reads the unit axis at 0 and the other axes at the result's own
  coordinates. A reduction over one axis, read at the kept coordinates, ranges over the dropped coordinate put
  back in its place.
-/
import Idealize.ShloMosaic.Lib.Pipeline.Value
import Idealize.ShloMosaic.Lib.ValueIdx
import Idealize.ShloMosaic.PureOps.Ideal.Laws

namespace Cert.Lib.AxisLayout

open Idealize.ShloMosaic Idealize.ShloMosaic.ValueIdx

variable {α : Type}

/-- Two indices of a one-axis shape with the same coordinate are equal. -/
theorem ext1 {n0 : ℕ} {f g : (⟨1, ![n0]⟩ : Shape).Idx} (h0 : (f 0).val = (g 0).val) : f = g :=
  funext fun a => Fin.ext (by match a with | ⟨0, _⟩ => exact h0)

/-- Two indices of a two-axis shape with the same coordinates are equal. -/
theorem ext2 {n0 n1 : ℕ} {f g : (⟨2, ![n0, n1]⟩ : Shape).Idx} (h0 : (f 0).val = (g 0).val) (h1 : (f 1).val = (g 1).val) : f = g :=
  funext fun a => Fin.ext (by match a with | ⟨0, _⟩ => exact h0 | ⟨1, _⟩ => exact h1)

/-- Two indices of a three-axis shape with the same coordinates are equal. -/
theorem ext3 {n0 n1 n2 : ℕ} {f g : (⟨3, ![n0, n1, n2]⟩ : Shape).Idx} (h0 : (f 0).val = (g 0).val) (h1 : (f 1).val = (g 1).val)
    (h2 : (f 2).val = (g 2).val) : f = g :=
  funext fun a => Fin.ext (by match a with | ⟨0, _⟩ => exact h0 | ⟨1, _⟩ => exact h1 | ⟨2, _⟩ => exact h2)

/-- An [a, b] array cast to [a, b, 1] reads, at (i, j, u), the operand at (i, j). -/
theorem shapeCast_ab_ab1_apply {a b : ℕ} (x : (⟨2, ![a, b]⟩ : Shape).Idx → α)
    (h : (⟨2, ![a, b]⟩ : Shape).ShapeCasts ⟨3, ![a, b, 1]⟩) (i : Fin a) (j : Fin b) (u : Fin 1) :
    shapeCast ⟨3, ![a, b, 1]⟩ x h (ix3 i j u) = x (ix2 i j) :=
  shapeCast_apply x h _ _ (by
    have hu : u.val = 0 := by omega
    rw [Shape.rowMajor_val_three, Shape.rowMajor_val_two]
    show i.val * b + j.val = (i.val * b + j.val) * 1 + u.val
    rw [hu, Nat.mul_one, Nat.add_zero])

/-- An [a, 1, c] array cast to [a, c] reads, at (i, k), the operand at (i, 0, k). -/
theorem shapeCast_a1c_ac_apply {a c : ℕ} (x : (⟨3, ![a, 1, c]⟩ : Shape).Idx → α)
    (h : (⟨3, ![a, 1, c]⟩ : Shape).ShapeCasts ⟨2, ![a, c]⟩) (i : Fin a) (k : Fin c) :
    shapeCast ⟨2, ![a, c]⟩ x h (ix2 i k) = x (ix3 i (0 : Fin 1) k) :=
  shapeCast_apply x h _ _ (by
    rw [Shape.rowMajor_val_three, Shape.rowMajor_val_two]
    show (i.val * 1 + 0) * c + k.val = i.val * c + k.val
    rw [Nat.mul_one, Nat.add_zero])

/-- An [a, b, 1] array broadcast to [a, b, c] reads, at (i, j, k), the operand at (i, j, 0). -/
theorem broadcastTo_ab1_abc_apply {a b c : ℕ} (v : (⟨3, ![a, b, 1]⟩ : Shape).Idx → α)
    (h : (⟨3, ![a, b, 1]⟩ : Shape).Broadcasts ⟨3, ![a, b, c]⟩) (i : Fin a) (j : Fin b) (k : Fin c) :
    broadcastTo ⟨3, ![a, b, c]⟩ v h (ix3 i j k) = v (ix3 i j (0 : Fin 1)) := by
  refine broadcastTo_apply v h (ix3 i j k) (ix3 i j (0 : Fin 1)) fun ax => ?_
  match ax with
  | ⟨0, _⟩ =>
    show i.val = if a = 1 then 0 else i.val
    split
    · have := i.isLt; omega
    · rfl
  | ⟨1, _⟩ =>
    show j.val = if b = 1 then 0 else j.val
    split
    · have := j.isLt; omega
    · rfl
  | ⟨2, _⟩ => rfl

/-- An [a, 1, c] array broadcast to [a, b, c] reads, at (i, j, k), the operand at (i, 0, k). -/
theorem broadcastTo_a1c_abc_apply {a b c : ℕ} (v : (⟨3, ![a, 1, c]⟩ : Shape).Idx → α)
    (h : (⟨3, ![a, 1, c]⟩ : Shape).Broadcasts ⟨3, ![a, b, c]⟩) (i : Fin a) (j : Fin b) (k : Fin c) :
    broadcastTo ⟨3, ![a, b, c]⟩ v h (ix3 i j k) = v (ix3 i (0 : Fin 1) k) := by
  refine broadcastTo_apply v h (ix3 i j k) (ix3 i (0 : Fin 1) k) fun ax => ?_
  match ax with
  | ⟨0, _⟩ =>
    show i.val = if a = 1 then 0 else i.val
    split
    · have := i.isLt; omega
    · rfl
  | ⟨1, _⟩ => rfl
  | ⟨2, _⟩ =>
    show k.val = if c = 1 then 0 else k.val
    split
    · have := k.isLt; omega
    · rfl

/-- Dropping the middle axis of [a, b, c]: the kept index (i, k) with coordinate j put back is (i, j, k). -/
theorem lift_abc_mid {a b c : ℕ} (h : (⟨3, ![a, b, c]⟩ : Shape).Reduces [1] (⟨2, ![a, c]⟩ : Shape)) (i : Fin a) (k : Fin c)
    (j : Fin ((⟨3, ![a, b, c]⟩ : Shape).size 1)) : h.lift (ix2 i k) j = ix3 i (⟨j.val, j.isLt⟩ : Fin b) k := by
  funext d; apply Fin.ext
  fin_cases d <;> rfl

/-- Dropping the last axis of [a, b, c]: the kept index (i, j) with coordinate k put back is (i, j, k). -/
theorem lift_abc_last {a b c : ℕ} (h : (⟨3, ![a, b, c]⟩ : Shape).Reduces [2] (⟨2, ![a, b]⟩ : Shape)) (i : Fin a) (j : Fin b)
    (k : Fin ((⟨3, ![a, b, c]⟩ : Shape).size 2)) : h.lift (ix2 i j) k = ix3 i j (⟨k.val, k.isLt⟩ : Fin c) := by
  funext d; apply Fin.ext
  fin_cases d <;> rfl

/-- Dropping the last axis of [a, b]: the kept index i with coordinate k put back is (i, k). -/
theorem lift_ab_last {a b : ℕ} (h : (⟨2, ![a, b]⟩ : Shape).Reduces [1] (⟨1, ![a]⟩ : Shape)) (i : Fin a)
    (k : Fin ((⟨2, ![a, b]⟩ : Shape).size 1)) : h.lift (ix1 i) k = ix2 i (⟨k.val, k.isLt⟩ : Fin b) := by
  funext d; apply Fin.ext
  fin_cases d <;> rfl

variable {φ : FTy}

/-- A sum along the middle axis of [a, b, c], at (i, k), is the sum over j of the entries (i, j, k). -/
theorem sum_mid_apply {a b c : ℕ} (src : FVec Ideal ⟨3, ![a, b, c]⟩ φ) (acc : BitVec φ.bits)
    (h : (⟨3, ![a, b, c]⟩ : Shape).Reduces [1] (⟨2, ![a, c]⟩ : Shape)) (hφ : FKind.Formats φ) (hacc : acc = FKind.add.neutral φ hφ)
    (i : Fin a) (k : Fin c) :
    multiReduction .add [1] ⟨2, ![a, c]⟩ src acc h hφ hacc (ix2 i k) = ∑ j : Fin b, src (ix3 i j k) :=
  (Ideal.multiReduction_add_single src acc h hφ hacc (ix2 i k)).trans
    (Finset.sum_congr rfl fun j _ => congrArg src (lift_abc_mid h i k j))

/-- A sum along the last axis of [a, b, c], at (i, j), is the sum over k of the entries (i, j, k). -/
theorem sum_last_apply {a b c : ℕ} (src : FVec Ideal ⟨3, ![a, b, c]⟩ φ) (acc : BitVec φ.bits)
    (h : (⟨3, ![a, b, c]⟩ : Shape).Reduces [2] (⟨2, ![a, b]⟩ : Shape)) (hφ : FKind.Formats φ) (hacc : acc = FKind.add.neutral φ hφ)
    (i : Fin a) (j : Fin b) :
    multiReduction .add [2] ⟨2, ![a, b]⟩ src acc h hφ hacc (ix2 i j) = ∑ k : Fin c, src (ix3 i j k) :=
  (Ideal.multiReduction_add_single src acc h hφ hacc (ix2 i j)).trans
    (Finset.sum_congr rfl fun k _ => congrArg src (lift_abc_last h i j k))

/-- A sum along the last axis of [a, b], at i, is the sum over k of the entries (i, k). -/
theorem sum_row_apply {a b : ℕ} (src : FVec Ideal ⟨2, ![a, b]⟩ φ) (acc : BitVec φ.bits)
    (h : (⟨2, ![a, b]⟩ : Shape).Reduces [1] (⟨1, ![a]⟩ : Shape)) (hφ : FKind.Formats φ) (hacc : acc = FKind.add.neutral φ hφ)
    (i : Fin a) :
    multiReduction .add [1] ⟨1, ![a]⟩ src acc h hφ hacc (ix1 i) = ∑ k : Fin b, src (ix2 i k) :=
  (Ideal.multiReduction_add_single src acc h hφ hacc (ix1 i)).trans
    (Finset.sum_congr rfl fun k _ => congrArg src (lift_ab_last h i k))

/-- A maximum along the middle axis of [a, b, c], at (i, k): the fold of max from the start value over the entries (i, j, k). -/
theorem max_mid_apply {a b c : ℕ} (src : FVec Ideal ⟨3, ![a, b, c]⟩ φ) (acc : BitVec φ.bits)
    (h : (⟨3, ![a, b, c]⟩ : Shape).Reduces [1] (⟨2, ![a, c]⟩ : Shape)) (hφ : FKind.Formats φ) (hacc : acc = FKind.maximumf.neutral φ hφ)
    (i : Fin a) (k : Fin c) :
    multiReduction .maximumf [1] ⟨2, ![a, c]⟩ src acc h hφ hacc (ix2 i k)
      = (Finset.univ : Finset (Fin b)).fold max (Ideal.ofBits φ acc) (fun j => src (ix3 i j k)) :=
  (Ideal.multiReduction_maximumf_single src acc h hφ hacc (ix2 i k)).trans
    (congrArg (fun f => (Finset.univ : Finset (Fin b)).fold max (Ideal.ofBits φ acc) f)
      (funext fun j => congrArg src (lift_abc_mid h i k j)))

/-- A maximum along the last axis of [a, b, c], at (i, j): the fold of max from the start value over the entries (i, j, k). -/
theorem max_last_apply {a b c : ℕ} (src : FVec Ideal ⟨3, ![a, b, c]⟩ φ) (acc : BitVec φ.bits)
    (h : (⟨3, ![a, b, c]⟩ : Shape).Reduces [2] (⟨2, ![a, b]⟩ : Shape)) (hφ : FKind.Formats φ) (hacc : acc = FKind.maximumf.neutral φ hφ)
    (i : Fin a) (j : Fin b) :
    multiReduction .maximumf [2] ⟨2, ![a, b]⟩ src acc h hφ hacc (ix2 i j)
      = (Finset.univ : Finset (Fin c)).fold max (Ideal.ofBits φ acc) (fun k => src (ix3 i j k)) :=
  (Ideal.multiReduction_maximumf_single src acc h hφ hacc (ix2 i j)).trans
    (congrArg (fun f => (Finset.univ : Finset (Fin c)).fold max (Ideal.ofBits φ acc) f)
      (funext fun k => congrArg src (lift_abc_last h i j k)))

end Cert.Lib.AxisLayout
-- ==== Proof.Spec.lean ====
/-
  The value both programs compute, written once over the extended reals.

  Two tables of embedding rows have been looked up per batch row: `ed` holds 70 rows of width 64, `es` holds 130
  rows of width 32. A batch row's feature vector has 2336 entries in four stretches: the first 20 rows of `ed` laid
  end to end (1280 entries), the mean of its other 50 rows (64 entries), the first 30 rows of `es` laid end to end
  (960 entries) and the mean of its other 100 rows (32 entries). The result is the feature vector times the weight
  matrix `w`, plus the bias `b`, clamped below at zero. The product is written stretch by stretch, each stretch
  against its own rows of `w`, the four partial sums added from the left.
-/
import Idealize.ShloMosaic.Lib.ValueIdx
import Idealize.ShloMosaic.PureOps.Ideal

noncomputable section

open scoped BigOperators

namespace Cert.PooledDense

open Idealize.ShloMosaic Idealize.ShloMosaic.ValueIdx

/-- The float words of `0`, `50` and `100`, kept as words: both programs spell the same ones. -/
abbrev zero : EReal := Ideal.ofBits .f32 0x00000000#32
abbrev fifty : EReal := Ideal.ofBits .f32 0x42480000#32
abbrev hundred : EReal := Ideal.ofBits .f32 0x42C80000#32

/-- Entry `k` of the first stretch: row `k / 64` of `ed`, column `k % 64`. -/
def flatD (ed : (⟨3, ![4096, 70, 64]⟩ : Shape).Idx → EReal) (r : Fin 4096) (k : Fin 1280) : EReal :=
  ed (ix3 r (⟨k.val / 64, by have := k.isLt; omega⟩ : Fin 70) (⟨k.val % 64, by omega⟩ : Fin 64))

/-- Entry `k` of the second stretch: the mean over rows `20 … 69` of `ed` of column `k`. -/
def meanD (ed : (⟨3, ![4096, 70, 64]⟩ : Shape).Idx → EReal) (r : Fin 4096) (k : Fin 64) : EReal :=
  Ideal.div (∑ j : Fin 50, ed (ix3 r (⟨20 + j.val, by have := j.isLt; omega⟩ : Fin 70) k)) fifty

/-- Entry `k` of the third stretch: row `k / 32` of `es`, column `k % 32`. -/
def flatS (es : (⟨3, ![4096, 130, 32]⟩ : Shape).Idx → EReal) (r : Fin 4096) (k : Fin 960) : EReal :=
  es (ix3 r (⟨k.val / 32, by have := k.isLt; omega⟩ : Fin 130) (⟨k.val % 32, by omega⟩ : Fin 32))

/-- Entry `k` of the fourth stretch: the mean over rows `30 … 129` of `es` of column `k`. -/
def meanS (es : (⟨3, ![4096, 130, 32]⟩ : Shape).Idx → EReal) (r : Fin 4096) (k : Fin 32) : EReal :=
  Ideal.div (∑ j : Fin 100, es (ix3 r (⟨30 + j.val, by have := j.isLt; omega⟩ : Fin 130) k)) hundred

/-- Output entry `(r, q)`. -/
def dense (ed : (⟨3, ![4096, 70, 64]⟩ : Shape).Idx → EReal) (es : (⟨3, ![4096, 130, 32]⟩ : Shape).Idx → EReal)
    (w : (⟨2, ![2336, 128]⟩ : Shape).Idx → EReal) (b : (⟨1, ![128]⟩ : Shape).Idx → EReal) (r : Fin 4096) (q : Fin 128) : EReal :=
  max ((((∑ k : Fin 1280, flatD ed r k * w (ix2 (⟨k.val, by have := k.isLt; omega⟩ : Fin 2336) q)
      + ∑ k : Fin 64, meanD ed r k * w (ix2 (⟨1280 + k.val, by have := k.isLt; omega⟩ : Fin 2336) q))
      + ∑ k : Fin 960, flatS es r k * w (ix2 (⟨1344 + k.val, by have := k.isLt; omega⟩ : Fin 2336) q))
      + ∑ k : Fin 32, meanS es r k * w (ix2 (⟨2304 + k.val, by have := k.isLt; omega⟩ : Fin 2336) q))
      + b (ix1 q)) zero

/-- The whole result array. -/
def G (ed : (⟨3, ![4096, 70, 64]⟩ : Shape).Idx → EReal) (es : (⟨3, ![4096, 130, 32]⟩ : Shape).Idx → EReal)
    (w : (⟨2, ![2336, 128]⟩ : Shape).Idx → EReal) (b : (⟨1, ![128]⟩ : Shape).Idx → EReal) :
    (⟨2, ![4096, 128]⟩ : Shape).Idx → EReal :=
  fun i => dense ed es w b (i 0) (i 1)

end Cert.PooledDense
-- ==== Proof.KernelBody.lean ====
/-
  What the kernel's body computes for one block of 128 batch rows, read at an entry (p, q) of the 128 × 128 output block.

  The body multiplies four operands by four weight blocks and adds the products from the left. Two of the operands
  are the loaded blocks themselves (a change of float format is the identity on the extended reals); the other two are
  means: a [128, 50, 64] (or [128, 100, 32]) block summed along its middle axis and divided by the float 50 (or 100).
  Each product into the zero matrix is a plain sum over the contracted coordinate, so entry (p, q) of the body's
  accumulator is four finite sums; the bias row is then added and the result clamped below at zero.
-/
import proofs.«160230_j38740605009948_2_alg».proof.Proof.Gen.KernelIdeal.Value
import proofs.«160230_j38740605009948_2_alg».proof.Proof.LibPlainMatmul
import proofs.«160230_j38740605009948_2_alg».proof.Proof.LibAxisLayout
import proofs.«160230_j38740605009948_2_alg».proof.Proof.Spec

noncomputable section

open scoped BigOperators

namespace Cert.PooledDense.Body

open Cert.KernelIdeal Cert.KernelIdeal.Gen Idealize.ShloMosaic Idealize.ShloMosaic.ValueIdx Idealize.ShloMosaic.TcCoe
open Cert.PooledDense

/-- The mean over the middle axis of a [128, 50, 64] block, as the body spells it. -/
def mean50 (P : Vec Ideal S128x50x64 .f32) : FVec Ideal S128x64 .bf16 :=
  truncf .bf16 (divf (multiReduction (F := Ideal) .add [1] S128x64 (shapeCast S128x50x64 P shapeCasts_S128x50x64_S128x50x64) 0x00000000#32 reduces_S128x50x64_S128x64 (.inl rfl) rfl)
    (broadcast S128x64 (Scalar.ofBits (F := Ideal) .f32 0x42480000#32))) bitsLt_bf16_f32

/-- The mean over the middle axis of a [128, 100, 32] block, as the body spells it. -/
def mean100 (P : Vec Ideal S128x100x32 .f32) : FVec Ideal S128x32 .bf16 :=
  truncf .bf16 (divf (multiReduction (F := Ideal) .add [1] S128x32 (shapeCast S128x100x32 P shapeCasts_S128x100x32_S128x100x32) 0x00000000#32 reduces_S128x100x32_S128x32 (.inl rfl) rfl)
    (broadcast S128x32 (Scalar.ofBits (F := Ideal) .f32 0x42C80000#32))) bitsLt_bf16_f32

/-- Entry (p, k) of the first mean: the 50 entries (p, j, k) added, divided by 50. -/
theorem mean50_apply (P : Vec Ideal S128x50x64 .f32) (p : Fin 128) (k : Fin 64) :
    mean50 P (ix2 p k) = Ideal.div (∑ j : Fin 50, P (ix3 p j k)) fifty := by
  show Ideal.div ((multiReduction (F := Ideal) .add [1] S128x64 (shapeCast S128x50x64 P shapeCasts_S128x50x64_S128x50x64) 0x00000000#32 reduces_S128x50x64_S128x64 (.inl rfl) rfl) (ix2 p k)) fifty = _
  rw [shapeCast_self]
  exact congrArg (Ideal.div · fifty) (Cert.Lib.AxisLayout.sum_mid_apply P _ _ _ _ p k)

/-- Entry (p, k) of the second mean: the 100 entries (p, j, k) added, divided by 100. -/
theorem mean100_apply (P : Vec Ideal S128x100x32 .f32) (p : Fin 128) (k : Fin 32) :
    mean100 P (ix2 p k) = Ideal.div (∑ j : Fin 100, P (ix3 p j k)) hundred := by
  show Ideal.div ((multiReduction (F := Ideal) .add [1] S128x32 (shapeCast S128x100x32 P shapeCasts_S128x100x32_S128x100x32) 0x00000000#32 reduces_S128x100x32_S128x32 (.inl rfl) rfl) (ix2 p k)) hundred = _
  rw [shapeCast_self]
  exact congrArg (Ideal.div · hundred) (Cert.Lib.AxisLayout.sum_mid_apply P _ _ _ _ p k)

/-- Entry (p, q) of the body's accumulator over one block, as four sums. -/
def blockSum (P0 : Vec Ideal S128x1280 .bf16) (P1 : Vec Ideal S1280x128 .bf16) (P2 : Vec Ideal S128x50x64 .f32) (P3 : Vec Ideal S64x128 .bf16)
    (P4 : Vec Ideal S128x960 .bf16) (P5 : Vec Ideal S960x128 .bf16) (P6 : Vec Ideal S128x100x32 .f32) (P7 : Vec Ideal S32x128 .bf16)
    (p q : Fin 128) : EReal :=
  ((∑ k : Fin 1280, P0 (ix2 p k) * P1 (ix2 k q)
      + ∑ k : Fin 64, Ideal.div (∑ j : Fin 50, P2 (ix3 p j k)) fifty * P3 (ix2 k q))
      + ∑ k : Fin 960, P4 (ix2 p k) * P5 (ix2 k q))
      + ∑ k : Fin 32, Ideal.div (∑ j : Fin 100, P6 (ix3 p j k)) hundred * P7 (ix2 k q)

/-- The body's accumulator at (p, q): each product into zero is a sum over the contracted coordinate. -/
theorem pay2_apply (P0 : Vec Ideal S128x1280 .bf16) (P1 : Vec Ideal S1280x128 .bf16) (P2 : Vec Ideal S128x50x64 .f32) (P3 : Vec Ideal S64x128 .bf16)
    (P4 : Vec Ideal S128x960 .bf16) (P5 : Vec Ideal S960x128 .bf16) (P6 : Vec Ideal S128x100x32 .f32) (P7 : Vec Ideal S32x128 .bf16)
    (p q : Fin 128) :
    (k0_pay2 (F := Ideal) P0 P1 P2 P3 P4 P5 P6 P7) (ix2 p q) = blockSum P0 P1 P2 P3 P4 P5 P6 P7 p q := by
  have e1 : (matmul dot_S128x1280_S1280x128_S128x128_1_0_0_1_n_n none (shapeCast S128x1280 P0 shapeCasts_S128x1280_S128x1280 : FVec Ideal S128x1280 .bf16) (shapeCast S1280x128 P1 shapeCasts_S1280x128_S1280x128 : FVec Ideal S1280x128 .bf16) (constant (F := Ideal) S128x128 .f32 0x00000000#32)) (ix2 p q)
      = ∑ k : Fin 1280, P0 (ix2 p k) * P1 (ix2 k q) := by
    rw [shapeCast_self, shapeCast_self]
    exact Idealize.ShloMosaic.PlainMatmul.matmul_zero_apply dot_S128x1280_S1280x128_S128x128_1_0_0_1_n_n rfl rfl rfl rfl rfl rfl none P0 P1 p q
  have e2 : (matmul dot_S128x64_S64x128_S128x128_1_0_0_1_n_n none (mean50 P2) (shapeCast S64x128 P3 shapeCasts_S64x128_S64x128 : FVec Ideal S64x128 .bf16) (constant (F := Ideal) S128x128 .f32 0x00000000#32)) (ix2 p q)
      = ∑ k : Fin 64, Ideal.div (∑ j : Fin 50, P2 (ix3 p j k)) fifty * P3 (ix2 k q) := by
    rw [shapeCast_self]
    refine (Idealize.ShloMosaic.PlainMatmul.matmul_zero_apply dot_S128x64_S64x128_S128x128_1_0_0_1_n_n rfl rfl rfl rfl rfl rfl none (mean50 P2) P3 p q).trans ?_
    exact Finset.sum_congr rfl fun k _ => congrArg (· * P3 (ix2 k q)) (mean50_apply P2 p k)
  have e3 : (matmul dot_S128x960_S960x128_S128x128_1_0_0_1_n_n none (shapeCast S128x960 P4 shapeCasts_S128x960_S128x960 : FVec Ideal S128x960 .bf16) (shapeCast S960x128 P5 shapeCasts_S960x128_S960x128 : FVec Ideal S960x128 .bf16) (constant (F := Ideal) S128x128 .f32 0x00000000#32)) (ix2 p q)
      = ∑ k : Fin 960, P4 (ix2 p k) * P5 (ix2 k q) := by
    rw [shapeCast_self, shapeCast_self]
    exact Idealize.ShloMosaic.PlainMatmul.matmul_zero_apply dot_S128x960_S960x128_S128x128_1_0_0_1_n_n rfl rfl rfl rfl rfl rfl none P4 P5 p q
  have e4 : (matmul dot_S128x32_S32x128_S128x128_1_0_0_1_n_n none (mean100 P6) (shapeCast S32x128 P7 shapeCasts_S32x128_S32x128 : FVec Ideal S32x128 .bf16) (constant (F := Ideal) S128x128 .f32 0x00000000#32)) (ix2 p q)
      = ∑ k : Fin 32, Ideal.div (∑ j : Fin 100, P6 (ix3 p j k)) hundred * P7 (ix2 k q) := by
    rw [shapeCast_self]
    refine (Idealize.ShloMosaic.PlainMatmul.matmul_zero_apply dot_S128x32_S32x128_S128x128_1_0_0_1_n_n rfl rfl rfl rfl rfl rfl none (mean100 P6) P7 p q).trans ?_
    exact Finset.sum_congr rfl fun k _ => congrArg (· * P7 (ix2 k q)) (mean100_apply P6 p k)
  show (((matmul dot_S128x1280_S1280x128_S128x128_1_0_0_1_n_n none (shapeCast S128x1280 P0 shapeCasts_S128x1280_S128x1280 : FVec Ideal S128x1280 .bf16) (shapeCast S1280x128 P1 shapeCasts_S1280x128_S1280x128 : FVec Ideal S1280x128 .bf16) (constant (F := Ideal) S128x128 .f32 0x00000000#32)) (ix2 p q)
      + (matmul dot_S128x64_S64x128_S128x128_1_0_0_1_n_n none (mean50 P2) (shapeCast S64x128 P3 shapeCasts_S64x128_S64x128 : FVec Ideal S64x128 .bf16) (constant (F := Ideal) S128x128 .f32 0x00000000#32)) (ix2 p q))
      + (matmul dot_S128x960_S960x128_S128x128_1_0_0_1_n_n none (shapeCast S128x960 P4 shapeCasts_S128x960_S128x960 : FVec Ideal S128x960 .bf16) (shapeCast S960x128 P5 shapeCasts_S960x128_S960x128 : FVec Ideal S960x128 .bf16) (constant (F := Ideal) S128x128 .f32 0x00000000#32)) (ix2 p q))
      + (matmul dot_S128x32_S32x128_S128x128_1_0_0_1_n_n none (mean100 P6) (shapeCast S32x128 P7 shapeCasts_S32x128_S32x128 : FVec Ideal S32x128 .bf16) (constant (F := Ideal) S128x128 .f32 0x00000000#32)) (ix2 p q) = _
  rw [e1, e2, e3, e4]
  rfl

theorem off2 : (![0, 0] : Fin 2 → Nat) = fun _ => 0 := funext fun a => by fin_cases a <;> rfl
theorem off3 : (![0, 0, 0] : Fin 3 → Nat) = fun _ => 0 := funext fun a => by fin_cases a <;> rfl

/-- What the body leaves in the output block at (p, q), from the nine input blocks: the accumulator there plus the
    bias row's entry q, clamped below at zero. (Each block is loaded whole, through the rectangle at offset zero.) -/
theorem out9_apply (x0 : Vec Ideal S128x1280 .bf16) (x1 : Vec Ideal S128x50x64 .f32) (x2 : Vec Ideal S128x960 .bf16) (x3 : Vec Ideal S128x100x32 .f32)
    (x4 : Vec Ideal S1280x128 .bf16) (x5 : Vec Ideal S64x128 .bf16) (x6 : Vec Ideal S960x128 .bf16) (x7 : Vec Ideal S32x128 .bf16) (x8 : Vec Ideal S1x128 .f32)
    (p q : Fin 128) :
    out0_9 (F := Ideal) x0 x1 x2 x3 x4 x5 x6 x7 x8 (ix2 p q) = max (blockSum x0 x4 x1 x5 x2 x6 x3 x7 p q + x8 (ix2 (0 : Fin 1) q)) zero := by
  unfold out0_9
  rw [Cert.KernelIdeal.Value.canon9_eq]
  simp only [View.ld_unit_zero (S := S128x1280) off2, View.ld_unit_zero (S := S1280x128) off2, View.ld_unit_zero (S := S128x50x64) off3,
    View.ld_unit_zero (S := S64x128) off2, View.ld_unit_zero (S := S128x960) off2, View.ld_unit_zero (S := S960x128) off2,
    View.ld_unit_zero (S := S128x100x32) off3, View.ld_unit_zero (S := S32x128) off2, View.ld_unit_zero (S := S1x128) off2]
  have h0 : Cert.KernelIdeal.Value.ix9_0 (ix2 p q) = ix2 p q :=
    funext fun a => Fin.ext (by match a with | ⟨0, _⟩ => rfl | ⟨1, _⟩ => rfl)
  have h1 : Cert.KernelIdeal.Value.ix9_1 (ix2 p q) = ix2 (0 : Fin 1) q :=
    funext fun a => Fin.ext (by match a with | ⟨0, _⟩ => rfl | ⟨1, _⟩ => rfl)
  show max ((k0_pay2 (F := Ideal) x0 x4 x1 x5 x2 x6 x3 x7) (Cert.KernelIdeal.Value.ix9_0 (ix2 p q)) + x8 (Cert.KernelIdeal.Value.ix9_1 (ix2 p q))) zero = _
  rw [h0, h1, pay2_apply]

end Cert.PooledDense.Body
-- ==== Proof.HostArrays.lean ====
/-
  The nine arrays the kernel's region finds, as functions of the program's arguments, read at an index.

  Before the region the program looks up the embedding rows (negative keys are first moved up by the table's
  height; the lookup itself is kept as one term, the same one the reference computes), cuts each looked-up array
  into its first rows and its remaining rows, lays the first rows of each batch row end to end, cuts the weight
  matrix into four row ranges, and views the bias as a one-row matrix. Changes of float format are the identity on
  the extended reals. So every entry of every array the region reads is one entry of a looked-up array, of the
  weight matrix or of the bias.
-/
import proofs.«160230_j38740605009948_2_alg».proof.Proof.Gen.KernelIdeal.Frame
import proofs.«160230_j38740605009948_2_alg».proof.Proof.Spec
import Idealize.ShloMosaic.Lib.Pipeline.Value
import Idealize.ShloMosaic.Lib.ValueIdx
import Idealize.ShloMosaic.Lib.StableHlo.Run

noncomputable section

open scoped BigOperators

namespace Cert.PooledDense.Host

open Cert.KernelIdeal Cert.KernelIdeal.Gen Idealize.ShloMosaic Idealize.ShloMosaic.ValueIdx Idealize.ShloMosaic.TcCoe Idealize.SL.Sem
open Idealize.ShloMosaic.StableHlo
open Cert.PooledDense

/-- The first table's rows looked up at the keys `a0` (keys below zero moved up by 1000000 first). -/
def lookupD (a0 : (⟨S4096x70, .i32⟩ : BufTy).Contents (Elt Ideal)) (a2 : (⟨S1000000x64, .f32⟩ : BufTy).Contents (Elt Ideal)) :
    (⟨S4096x70x64, .f32⟩ : BufTy).Contents (Elt Ideal) :=
  Host.gather gather_S1000000x64_S4096x70x1_S4096x70x64_2_0_n_n_0_2_164 a2
    (broadcastInDim S4096x70x1 ![0, 1] bcast_S4096x70_S4096x70x1_0_1
      (select (cmpi .slt a0 (broadcastInDim S4096x70 ![] bcast_S_S4096x70 (constantI S_ 32 0#32)))
        (addi a0 (broadcastInDim S4096x70 ![] bcast_S_S4096x70 (constantI S_ 32 1000000#32))) a0))

/-- The second table's rows looked up at the keys `a1` (keys below zero moved up by 1000000 first). -/
def lookupS (a1 : (⟨S4096x130, .i32⟩ : BufTy).Contents (Elt Ideal)) (a3 : (⟨S1000000x32, .f32⟩ : BufTy).Contents (Elt Ideal)) :
    (⟨S4096x130x32, .f32⟩ : BufTy).Contents (Elt Ideal) :=
  Host.gather gather_S1000000x32_S4096x130x1_S4096x130x32_2_0_n_n_0_2_132 a3
    (broadcastInDim S4096x130x1 ![0, 1] bcast_S4096x130_S4096x130x1_0_1
      (select (cmpi .slt a1 (broadcastInDim S4096x130 ![] bcast_S_S4096x130 (constantI S_ 32 0#32)))
        (addi a1 (broadcastInDim S4096x130 ![] bcast_S_S4096x130 (constantI S_ 32 1000000#32))) a1))

variable (m : (ℓ : Loc nD τ sig) → Buf (Elt Ideal) ℓ)

/-- The looked-up arrays of a core's arguments. -/
abbrev ed (c : Dev nD) : (⟨S4096x70x64, .f32⟩ : BufTy).Contents (Elt Ideal) :=
  lookupD (m ((c : Thread nD τ).loc main_arg0)) (m ((c : Thread nD τ).loc main_arg2))
abbrev es (c : Dev nD) : (⟨S4096x130x32, .f32⟩ : BufTy).Contents (Elt Ideal) :=
  lookupS (m ((c : Thread nD τ).loc main_arg1)) (m ((c : Thread nD τ).loc main_arg3))

/-- The first operand: the first 20 looked-up rows of each batch row laid end to end. -/
theorem arr0 (c : Dev nD) : @Eq (FVec Ideal S4096x1280 .bf16) (V m c main_v16)
    (truncf .bf16 (shapeCast S4096x1280 (extractStridedSlice S4096x20x64 ![0, 0, 0] (ed m c) slices_S4096x70x64_S4096x20x64_0_0_0) shapeCasts_S4096x20x64_S4096x1280) bitsLt_bf16_f32) := by
  dsimp only [V, hostOps0]
  after_results
  rfl

theorem arr0_apply (c : Dev nD) (r : Fin 4096) (k : Fin 1280) :
    @Eq EReal ((V m c main_v16 : FVec Ideal S4096x1280 .bf16) (ix2 r k)) (flatD (ed m c) r k) := by
  have hk := k.isLt
  refine (congrFun (arr0 m c) (ix2 r k)).trans ?_
  show shapeCast S4096x1280 (extractStridedSlice S4096x20x64 ![0, 0, 0] (ed m c) slices_S4096x70x64_S4096x20x64_0_0_0) shapeCasts_S4096x20x64_S4096x1280 (ix2 r k) = _
  refine (shapeCast_apply _ _ (ix2 r k) (ix3 r (⟨k.val / 64, by omega⟩ : Fin 20) (⟨k.val % 64, by omega⟩ : Fin 64)) ?_).trans ?_
  · rw [Shape.rowMajor_val_three, Shape.rowMajor_val_two]
    show (r.val * 20 + k.val / 64) * 64 + k.val % 64 = r.val * 1280 + k.val
    omega
  · exact extractStridedSlice_apply _ _ _ _ _ (fun a => match a with
      | ⟨0, _⟩ => by show r.val = 0 + r.val; omega
      | ⟨1, _⟩ => by show k.val / 64 = 0 + k.val / 64; omega
      | ⟨2, _⟩ => by show k.val % 64 = 0 + k.val % 64; omega)

/-- The second operand: the other 50 looked-up rows of each batch row. -/
theorem arr1 (c : Dev nD) : @Eq (FVec Ideal S4096x50x64 .f32) (V m c main_v17)
    (extractStridedSlice S4096x50x64 ![0, 20, 0] (ed m c) slices_S4096x70x64_S4096x50x64_0_20_0) := by
  dsimp only [V, hostOps0]
  after_results
  rfl

theorem arr1_apply (c : Dev nD) (r : Fin 4096) (j : Fin 50) (k : Fin 64) :
    @Eq EReal ((V m c main_v17 : FVec Ideal S4096x50x64 .f32) (ix3 r j k))
      (ed m c (ix3 r (⟨20 + j.val, by have := j.isLt; omega⟩ : Fin 70) k)) := by
  refine (congrFun (arr1 m c) (ix3 r j k)).trans ?_
  exact extractStridedSlice_apply _ _ _ _ _ (fun a => match a with
    | ⟨0, _⟩ => by show r.val = 0 + r.val; omega
    | ⟨1, _⟩ => by show 20 + j.val = 20 + j.val; rfl
    | ⟨2, _⟩ => by show k.val = 0 + k.val; omega)

/-- The third operand: the first 30 rows looked up in the second table, laid end to end. -/
theorem arr2 (c : Dev nD) : @Eq (FVec Ideal S4096x960 .bf16) (V m c main_v20)
    (truncf .bf16 (shapeCast S4096x960 (extractStridedSlice S4096x30x32 ![0, 0, 0] (es m c) slices_S4096x130x32_S4096x30x32_0_0_0) shapeCasts_S4096x30x32_S4096x960) bitsLt_bf16_f32) := by
  dsimp only [V, hostOps0]
  after_results
  rfl

theorem arr2_apply (c : Dev nD) (r : Fin 4096) (k : Fin 960) :
    @Eq EReal ((V m c main_v20 : FVec Ideal S4096x960 .bf16) (ix2 r k)) (flatS (es m c) r k) := by
  have hk := k.isLt
  refine (congrFun (arr2 m c) (ix2 r k)).trans ?_
  show shapeCast S4096x960 (extractStridedSlice S4096x30x32 ![0, 0, 0] (es m c) slices_S4096x130x32_S4096x30x32_0_0_0) shapeCasts_S4096x30x32_S4096x960 (ix2 r k) = _
  refine (shapeCast_apply _ _ (ix2 r k) (ix3 r (⟨k.val / 32, by omega⟩ : Fin 30) (⟨k.val % 32, by omega⟩ : Fin 32)) ?_).trans ?_
  · rw [Shape.rowMajor_val_three, Shape.rowMajor_val_two]
    show (r.val * 30 + k.val / 32) * 32 + k.val % 32 = r.val * 960 + k.val
    omega
  · exact extractStridedSlice_apply _ _ _ _ _ (fun a => match a with
      | ⟨0, _⟩ => by show r.val = 0 + r.val; omega
      | ⟨1, _⟩ => by show k.val / 32 = 0 + k.val / 32; omega
      | ⟨2, _⟩ => by show k.val % 32 = 0 + k.val % 32; omega)

/-- The fourth operand: the other 100 rows looked up in the second table. -/
theorem arr3 (c : Dev nD) : @Eq (FVec Ideal S4096x100x32 .f32) (V m c main_v21)
    (extractStridedSlice S4096x100x32 ![0, 30, 0] (es m c) slices_S4096x130x32_S4096x100x32_0_30_0) := by
  dsimp only [V, hostOps0]
  after_results
  rfl

theorem arr3_apply (c : Dev nD) (r : Fin 4096) (j : Fin 100) (k : Fin 32) :
    @Eq EReal ((V m c main_v21 : FVec Ideal S4096x100x32 .f32) (ix3 r j k))
      (es m c (ix3 r (⟨30 + j.val, by have := j.isLt; omega⟩ : Fin 130) k)) := by
  refine (congrFun (arr3 m c) (ix3 r j k)).trans ?_
  exact extractStridedSlice_apply _ _ _ _ _ (fun a => match a with
    | ⟨0, _⟩ => by show r.val = 0 + r.val; omega
    | ⟨1, _⟩ => by show 30 + j.val = 30 + j.val; rfl
    | ⟨2, _⟩ => by show k.val = 0 + k.val; omega)

/-- The fifth operand: rows 0 … 1279 of the weight matrix. -/
theorem arr4 (c : Dev nD) : @Eq (FVec Ideal S1280x128 .bf16) (V m c main_v23)
    (truncf .bf16 (extractStridedSlice S1280x128 ![0, 0] (m ((c : Thread nD τ).loc main_arg4) : FVec Ideal S2336x128 .f32) slices_S2336x128_S1280x128_0_0) bitsLt_bf16_f32) := by
  dsimp only [V, hostOps0]
  after_results <;> rfl

theorem arr4_apply (c : Dev nD) (k : Fin 1280) (q : Fin 128) :
    @Eq EReal ((V m c main_v23 : FVec Ideal S1280x128 .bf16) (ix2 k q))
      ((m ((c : Thread nD τ).loc main_arg4) : FVec Ideal S2336x128 .f32) (ix2 (⟨0 + k.val, by have := k.isLt; omega⟩ : Fin 2336) q)) := by
  refine (congrFun (arr4 m c) (ix2 k q)).trans ?_
  exact extractStridedSlice_apply (s := S2336x128) ![0, 0] (m ((c : Thread nD τ).loc main_arg4) : FVec Ideal S2336x128 .f32) slices_S2336x128_S1280x128_0_0 (ix2 k q) _ (fun a => match a with
    | ⟨0, _⟩ => by show 0 + k.val = 0 + k.val; rfl
    | ⟨1, _⟩ => by show q.val = 0 + q.val; omega)

/-- The sixth operand: rows 1280 … 1343 of the weight matrix. -/
theorem arr5 (c : Dev nD) : @Eq (FVec Ideal S64x128 .bf16) (V m c main_v25)
    (truncf .bf16 (extractStridedSlice S64x128 ![1280, 0] (m ((c : Thread nD τ).loc main_arg4) : FVec Ideal S2336x128 .f32) slices_S2336x128_S64x128_1280_0) bitsLt_bf16_f32) := by
  dsimp only [V, hostOps0]
  after_results <;> rfl

theorem arr5_apply (c : Dev nD) (k : Fin 64) (q : Fin 128) :
    @Eq EReal ((V m c main_v25 : FVec Ideal S64x128 .bf16) (ix2 k q))
      ((m ((c : Thread nD τ).loc main_arg4) : FVec Ideal S2336x128 .f32) (ix2 (⟨1280 + k.val, by have := k.isLt; omega⟩ : Fin 2336) q)) := by
  refine (congrFun (arr5 m c) (ix2 k q)).trans ?_
  exact extractStridedSlice_apply (s := S2336x128) ![1280, 0] (m ((c : Thread nD τ).loc main_arg4) : FVec Ideal S2336x128 .f32) slices_S2336x128_S64x128_1280_0 (ix2 k q) _ (fun a => match a with
    | ⟨0, _⟩ => by show 1280 + k.val = 1280 + k.val; rfl
    | ⟨1, _⟩ => by show q.val = 0 + q.val; omega)

/-- The seventh operand: rows 1344 … 2303 of the weight matrix. -/
theorem arr6 (c : Dev nD) : @Eq (FVec Ideal S960x128 .bf16) (V m c main_v27)
    (truncf .bf16 (extractStridedSlice S960x128 ![1344, 0] (m ((c : Thread nD τ).loc main_arg4) : FVec Ideal S2336x128 .f32) slices_S2336x128_S960x128_1344_0) bitsLt_bf16_f32) := by
  dsimp only [V, hostOps0]
  after_results <;> rfl

theorem arr6_apply (c : Dev nD) (k : Fin 960) (q : Fin 128) :
    @Eq EReal ((V m c main_v27 : FVec Ideal S960x128 .bf16) (ix2 k q))
      ((m ((c : Thread nD τ).loc main_arg4) : FVec Ideal S2336x128 .f32) (ix2 (⟨1344 + k.val, by have := k.isLt; omega⟩ : Fin 2336) q)) := by
  refine (congrFun (arr6 m c) (ix2 k q)).trans ?_
  exact extractStridedSlice_apply (s := S2336x128) ![1344, 0] (m ((c : Thread nD τ).loc main_arg4) : FVec Ideal S2336x128 .f32) slices_S2336x128_S960x128_1344_0 (ix2 k q) _ (fun a => match a with
    | ⟨0, _⟩ => by show 1344 + k.val = 1344 + k.val; rfl
    | ⟨1, _⟩ => by show q.val = 0 + q.val; omega)

/-- The eighth operand: rows 2304 … 2335 of the weight matrix. -/
theorem arr7 (c : Dev nD) : @Eq (FVec Ideal S32x128 .bf16) (V m c main_v29)
    (truncf .bf16 (extractStridedSlice S32x128 ![2304, 0] (m ((c : Thread nD τ).loc main_arg4) : FVec Ideal S2336x128 .f32) slices_S2336x128_S32x128_2304_0) bitsLt_bf16_f32) := by
  dsimp only [V, hostOps0]
  after_results <;> rfl

theorem arr7_apply (c : Dev nD) (k : Fin 32) (q : Fin 128) :
    @Eq EReal ((V m c main_v29 : FVec Ideal S32x128 .bf16) (ix2 k q))
      ((m ((c : Thread nD τ).loc main_arg4) : FVec Ideal S2336x128 .f32) (ix2 (⟨2304 + k.val, by have := k.isLt; omega⟩ : Fin 2336) q)) := by
  refine (congrFun (arr7 m c) (ix2 k q)).trans ?_
  exact extractStridedSlice_apply (s := S2336x128) ![2304, 0] (m ((c : Thread nD τ).loc main_arg4) : FVec Ideal S2336x128 .f32) slices_S2336x128_S32x128_2304_0 (ix2 k q) _ (fun a => match a with
    | ⟨0, _⟩ => by show 2304 + k.val = 2304 + k.val; rfl
    | ⟨1, _⟩ => by show q.val = 0 + q.val; omega)

/-- The ninth operand: the bias viewed as a one-row matrix. -/
theorem arr8 (c : Dev nD) : @Eq (FVec Ideal S1x128 .f32) (V m c main_v30)
    (shapeCast S1x128 (m ((c : Thread nD τ).loc main_arg5)) shapeCasts_S128_S1x128) := by
  dsimp only [V, hostOps0]
  after_results
  rfl

theorem arr8_apply (c : Dev nD) (q : Fin 128) :
    @Eq EReal ((V m c main_v30 : FVec Ideal S1x128 .f32) (ix2 (0 : Fin 1) q))
      ((m ((c : Thread nD τ).loc main_arg5) : FVec Ideal S128 .f32) (ix1 q)) := by
  refine (congrFun (arr8 m c) (ix2 (0 : Fin 1) q)).trans ?_
  refine shapeCast_apply _ _ (ix2 (0 : Fin 1) q) (ix1 q) ?_
  rw [Shape.rowMajor_val_one, Shape.rowMajor_val_two]
  show q.val = 0 * 128 + q.val
  omega

end Cert.PooledDense.Host
-- ==== Proof.Blocks.lean ====
/-
  From the blocks the grid points write back to the whole result array.

  Grid point t (of 32) works on batch rows 128 t … 128 t + 127: the four row-blocked operands are read at those rows,
  the four weight blocks and the bias row are read whole at every point, and the output block written back is rows
  128 t … 128 t + 127 of the result. Entry (p, q) of what point t writes back is therefore entry (128 t + p, q) of the
  pooled dense layer of the looked-up arrays; the 32 blocks tile the 4096 rows, so after the run the result array is
  that function everywhere.
-/
import proofs.«160230_j38740605009948_2_alg».proof.Proof.Gen.KernelIdeal.Value
import proofs.«160230_j38740605009948_2_alg».proof.Proof.KernelBody
import proofs.«160230_j38740605009948_2_alg».proof.Proof.HostArrays
import Idealize.ShloMosaic.Lib.Pipeline.Value

noncomputable section

open scoped BigOperators

namespace Cert.PooledDense.Blocks

open Cert.KernelIdeal Cert.KernelIdeal.Gen Idealize.ShloMosaic Idealize.ShloMosaic.ValueIdx Idealize.ShloMosaic.TcCoe Idealize.SL.Sem
open Idealize.ShloMosaic.Pipeline (Dat)
open Cert.PooledDense Cert.PooledDense.Body Cert.PooledDense.Host

variable (m : (ℓ : Loc nD τ sig) → Buf (Elt Ideal) ℓ) (ρ : Dev nD → PrngReg)

/-! ## Where each window's block sits, decided over the 32 grid points -/

theorem idx0 : ∀ t : Fin cfg0.N, win0_0.index t (0 : Fin 2) = t.val ∧ win0_0.index t (1 : Fin 2) = 0 :=
  (by decide +kernel : ∀ t : Fin grid0.N, _)
theorem idx2 : ∀ t : Fin cfg0.N, win0_2.index t (0 : Fin 2) = t.val ∧ win0_2.index t (1 : Fin 2) = 0 :=
  (by decide +kernel : ∀ t : Fin grid0.N, _)
theorem idx4 : ∀ t : Fin cfg0.N, win0_4.index t (0 : Fin 2) = 0 ∧ win0_4.index t (1 : Fin 2) = 0 :=
  (by decide +kernel : ∀ t : Fin grid0.N, _)
theorem idx5 : ∀ t : Fin cfg0.N, win0_5.index t (0 : Fin 2) = 0 ∧ win0_5.index t (1 : Fin 2) = 0 :=
  (by decide +kernel : ∀ t : Fin grid0.N, _)
theorem idx6 : ∀ t : Fin cfg0.N, win0_6.index t (0 : Fin 2) = 0 ∧ win0_6.index t (1 : Fin 2) = 0 :=
  (by decide +kernel : ∀ t : Fin grid0.N, _)
theorem idx7 : ∀ t : Fin cfg0.N, win0_7.index t (0 : Fin 2) = 0 ∧ win0_7.index t (1 : Fin 2) = 0 :=
  (by decide +kernel : ∀ t : Fin grid0.N, _)
theorem idx8 : ∀ t : Fin cfg0.N, win0_8.index t (0 : Fin 2) = 0 ∧ win0_8.index t (1 : Fin 2) = 0 :=
  (by decide +kernel : ∀ t : Fin grid0.N, _)
theorem idx9 : ∀ t : Fin cfg0.N, win0_9.index t (0 : Fin 2) = t.val ∧ win0_9.index t (1 : Fin 2) = 0 :=
  (by decide +kernel : ∀ t : Fin grid0.N, _)
theorem idx1 : ∀ t : Fin cfg0.N, win0_1.index t (0 : Fin 3) = t.val ∧ win0_1.index t (1 : Fin 3) = 0 ∧ win0_1.index t (2 : Fin 3) = 0 :=
  (by decide +kernel : ∀ t : Fin grid0.N, _)
theorem idx3 : ∀ t : Fin cfg0.N, win0_3.index t (0 : Fin 3) = t.val ∧ win0_3.index t (1 : Fin 3) = 0 ∧ win0_3.index t (2 : Fin 3) = 0 :=
  (by decide +kernel : ∀ t : Fin grid0.N, _)

/-- Batch row `128 t + p`: row `p` of grid point `t`'s block. -/
def row (t : Fin cfg0.N) (p : Fin 128) : Fin 4096 :=
  ⟨t.val * 128 + p.val, by
    have ht : t.val < 32 := lt_of_lt_of_eq t.isLt (show cfg0.N = 32 from N_0)
    have := p.isLt
    omega⟩

/-! ## Each input window's block at a point, read at an entry -/

theorem blk0_at (c : Dev nD) (t : Fin cfg0.N) (p : Fin 128) (k : Fin 1280) :
    @Eq EReal ((iblk m c 0 t : Vec Ideal S128x1280 .bf16) (ix2 p k)) (flatD (ed m c) (row t p) k) := by
  refine Eq.trans ?_ (arr0_apply m c (row t p) k)
  show (V m c main_v16 : FVec Ideal S4096x1280 .bf16) (((cfg0.win 0).blk t).view.emb (ix2 p k)) = (V m c main_v16 : FVec Ideal S4096x1280 .bf16) (ix2 (row t p) k)
  refine congrArg (V m c main_v16 : FVec Ideal S4096x1280 .bf16) (funext fun a => Fin.ext ?_)
  obtain ⟨e0, e1⟩ := idx0 t
  match a with
  | ⟨0, _⟩ => show win0_0.index t (0 : Fin 2) * 128 + 1 * p.val = t.val * 128 + p.val; rw [e0]; omega
  | ⟨1, _⟩ => show win0_0.index t (1 : Fin 2) * 1280 + 1 * k.val = k.val; rw [e1]; omega

theorem blk1_at (c : Dev nD) (t : Fin cfg0.N) (p : Fin 128) (j : Fin 50) (k : Fin 64) :
    @Eq EReal ((iblk m c 1 t : Vec Ideal S128x50x64 .f32) (ix3 p j k))
      (ed m c (ix3 (row t p) (⟨20 + j.val, by have := j.isLt; omega⟩ : Fin 70) k)) := by
  refine Eq.trans ?_ (arr1_apply m c (row t p) j k)
  show (V m c main_v17 : FVec Ideal S4096x50x64 .f32) (((cfg0.win 1).blk t).view.emb (ix3 p j k)) = (V m c main_v17 : FVec Ideal S4096x50x64 .f32) (ix3 (row t p) j k)
  refine congrArg (V m c main_v17 : FVec Ideal S4096x50x64 .f32) (funext fun a => Fin.ext ?_)
  obtain ⟨e0, e1, e2⟩ := idx1 t
  match a with
  | ⟨0, _⟩ => show win0_1.index t (0 : Fin 3) * 128 + 1 * p.val = t.val * 128 + p.val; rw [e0]; omega
  | ⟨1, _⟩ => show win0_1.index t (1 : Fin 3) * 50 + 1 * j.val = j.val; rw [e1]; omega
  | ⟨2, _⟩ => show win0_1.index t (2 : Fin 3) * 64 + 1 * k.val = k.val; rw [e2]; omega

theorem blk2_at (c : Dev nD) (t : Fin cfg0.N) (p : Fin 128) (k : Fin 960) :
    @Eq EReal ((iblk m c 2 t : Vec Ideal S128x960 .bf16) (ix2 p k)) (flatS (es m c) (row t p) k) := by
  refine Eq.trans ?_ (arr2_apply m c (row t p) k)
  show (V m c main_v20 : FVec Ideal S4096x960 .bf16) (((cfg0.win 2).blk t).view.emb (ix2 p k)) = (V m c main_v20 : FVec Ideal S4096x960 .bf16) (ix2 (row t p) k)
  refine congrArg (V m c main_v20 : FVec Ideal S4096x960 .bf16) (funext fun a => Fin.ext ?_)
  obtain ⟨e0, e1⟩ := idx2 t
  match a with
  | ⟨0, _⟩ => show win0_2.index t (0 : Fin 2) * 128 + 1 * p.val = t.val * 128 + p.val; rw [e0]; omega
  | ⟨1, _⟩ => show win0_2.index t (1 : Fin 2) * 960 + 1 * k.val = k.val; rw [e1]; omega

theorem blk3_at (c : Dev nD) (t : Fin cfg0.N) (p : Fin 128) (j : Fin 100) (k : Fin 32) :
    @Eq EReal ((iblk m c 3 t : Vec Ideal S128x100x32 .f32) (ix3 p j k))
      (es m c (ix3 (row t p) (⟨30 + j.val, by have := j.isLt; omega⟩ : Fin 130) k)) := by
  refine Eq.trans ?_ (arr3_apply m c (row t p) j k)
  show (V m c main_v21 : FVec Ideal S4096x100x32 .f32) (((cfg0.win 3).blk t).view.emb (ix3 p j k)) = (V m c main_v21 : FVec Ideal S4096x100x32 .f32) (ix3 (row t p) j k)
  refine congrArg (V m c main_v21 : FVec Ideal S4096x100x32 .f32) (funext fun a => Fin.ext ?_)
  obtain ⟨e0, e1, e2⟩ := idx3 t
  match a with
  | ⟨0, _⟩ => show win0_3.index t (0 : Fin 3) * 128 + 1 * p.val = t.val * 128 + p.val; rw [e0]; omega
  | ⟨1, _⟩ => show win0_3.index t (1 : Fin 3) * 100 + 1 * j.val = j.val; rw [e1]; omega
  | ⟨2, _⟩ => show win0_3.index t (2 : Fin 3) * 32 + 1 * k.val = k.val; rw [e2]; omega

theorem blk4_at (c : Dev nD) (t : Fin cfg0.N) (k : Fin 1280) (q : Fin 128) :
    @Eq EReal ((iblk m c 4 t : Vec Ideal S1280x128 .bf16) (ix2 k q))
      ((m ((c : Thread nD τ).loc main_arg4) : FVec Ideal S2336x128 .f32) (ix2 (⟨k.val, by have := k.isLt; omega⟩ : Fin 2336) q)) := by
  refine Eq.trans ?_ ((arr4_apply m c k q).trans (congrArg (m ((c : Thread nD τ).loc main_arg4) : FVec Ideal S2336x128 .f32)
    (funext fun a => Fin.ext (by match a with | ⟨0, _⟩ => exact Nat.zero_add _ | ⟨1, _⟩ => rfl))))
  show (V m c main_v23 : FVec Ideal S1280x128 .bf16) (((cfg0.win 4).blk t).view.emb (ix2 k q)) = (V m c main_v23 : FVec Ideal S1280x128 .bf16) (ix2 k q)
  refine congrArg (V m c main_v23 : FVec Ideal S1280x128 .bf16) (funext fun a => Fin.ext ?_)
  obtain ⟨e0, e1⟩ := idx4 t
  match a with
  | ⟨0, _⟩ => show win0_4.index t (0 : Fin 2) * 1280 + 1 * k.val = k.val; rw [e0]; omega
  | ⟨1, _⟩ => show win0_4.index t (1 : Fin 2) * 128 + 1 * q.val = q.val; rw [e1]; omega

theorem blk5_at (c : Dev nD) (t : Fin cfg0.N) (k : Fin 64) (q : Fin 128) :
    @Eq EReal ((iblk m c 5 t : Vec Ideal S64x128 .bf16) (ix2 k q))
      ((m ((c : Thread nD τ).loc main_arg4) : FVec Ideal S2336x128 .f32) (ix2 (⟨1280 + k.val, by have := k.isLt; omega⟩ : Fin 2336) q)) := by
  refine Eq.trans ?_ (arr5_apply m c k q)
  show (V m c main_v25 : FVec Ideal S64x128 .bf16) (((cfg0.win 5).blk t).view.emb (ix2 k q)) = (V m c main_v25 : FVec Ideal S64x128 .bf16) (ix2 k q)
  refine congrArg (V m c main_v25 : FVec Ideal S64x128 .bf16) (funext fun a => Fin.ext ?_)
  obtain ⟨e0, e1⟩ := idx5 t
  match a with
  | ⟨0, _⟩ => show win0_5.index t (0 : Fin 2) * 64 + 1 * k.val = k.val; rw [e0]; omega
  | ⟨1, _⟩ => show win0_5.index t (1 : Fin 2) * 128 + 1 * q.val = q.val; rw [e1]; omega

theorem blk6_at (c : Dev nD) (t : Fin cfg0.N) (k : Fin 960) (q : Fin 128) :
    @Eq EReal ((iblk m c 6 t : Vec Ideal S960x128 .bf16) (ix2 k q))
      ((m ((c : Thread nD τ).loc main_arg4) : FVec Ideal S2336x128 .f32) (ix2 (⟨1344 + k.val, by have := k.isLt; omega⟩ : Fin 2336) q)) := by
  refine Eq.trans ?_ (arr6_apply m c k q)
  show (V m c main_v27 : FVec Ideal S960x128 .bf16) (((cfg0.win 6).blk t).view.emb (ix2 k q)) = (V m c main_v27 : FVec Ideal S960x128 .bf16) (ix2 k q)
  refine congrArg (V m c main_v27 : FVec Ideal S960x128 .bf16) (funext fun a => Fin.ext ?_)
  obtain ⟨e0, e1⟩ := idx6 t
  match a with
  | ⟨0, _⟩ => show win0_6.index t (0 : Fin 2) * 960 + 1 * k.val = k.val; rw [e0]; omega
  | ⟨1, _⟩ => show win0_6.index t (1 : Fin 2) * 128 + 1 * q.val = q.val; rw [e1]; omega

theorem blk7_at (c : Dev nD) (t : Fin cfg0.N) (k : Fin 32) (q : Fin 128) :
    @Eq EReal ((iblk m c 7 t : Vec Ideal S32x128 .bf16) (ix2 k q))
      ((m ((c : Thread nD τ).loc main_arg4) : FVec Ideal S2336x128 .f32) (ix2 (⟨2304 + k.val, by have := k.isLt; omega⟩ : Fin 2336) q)) := by
  refine Eq.trans ?_ (arr7_apply m c k q)
  show (V m c main_v29 : FVec Ideal S32x128 .bf16) (((cfg0.win 7).blk t).view.emb (ix2 k q)) = (V m c main_v29 : FVec Ideal S32x128 .bf16) (ix2 k q)
  refine congrArg (V m c main_v29 : FVec Ideal S32x128 .bf16) (funext fun a => Fin.ext ?_)
  obtain ⟨e0, e1⟩ := idx7 t
  match a with
  | ⟨0, _⟩ => show win0_7.index t (0 : Fin 2) * 32 + 1 * k.val = k.val; rw [e0]; omega
  | ⟨1, _⟩ => show win0_7.index t (1 : Fin 2) * 128 + 1 * q.val = q.val; rw [e1]; omega

theorem blk8_at (c : Dev nD) (t : Fin cfg0.N) (q : Fin 128) :
    @Eq EReal ((iblk m c 8 t : Vec Ideal S1x128 .f32) (ix2 (0 : Fin 1) q))
      ((m ((c : Thread nD τ).loc main_arg5) : FVec Ideal S128 .f32) (ix1 q)) := by
  refine Eq.trans ?_ (arr8_apply m c q)
  show (V m c main_v30 : FVec Ideal S1x128 .f32) (((cfg0.win 8).blk t).view.emb (ix2 (0 : Fin 1) q)) = (V m c main_v30 : FVec Ideal S1x128 .f32) (ix2 (0 : Fin 1) q)
  refine congrArg (V m c main_v30 : FVec Ideal S1x128 .f32) (funext fun a => Fin.ext ?_)
  obtain ⟨e0, e1⟩ := idx8 t
  match a with
  | ⟨0, _⟩ => show win0_8.index t (0 : Fin 2) * 1 + 1 * 0 = 0; rw [e0]
  | ⟨1, _⟩ => show win0_8.index t (1 : Fin 2) * 128 + 1 * q.val = q.val; rw [e1]; omega

/-! ## What a point writes back, the cover, the result array -/

/-- The pooled dense layer of a core's looked-up arrays, weight matrix and bias. -/
abbrev result (c : Dev nD) : Buf (Elt Ideal) ((c : Thread nD τ).loc main_v31) :=
  G (ed m c) (es m c) (m ((c : Thread nD τ).loc main_arg4)) (m ((c : Thread nD τ).loc main_arg5))

/-- Grid point `t` writes back rows `128 t … 128 t + 127` of `result`. -/
theorem flushed_eq (c : Dev nD) (t : Fin cfg0.N) :
    (dats m 0 c).flushed 9 t = ((cfg0.win 9).blk t).view.read (Elt Ideal) (result m c) := by
  rw [Cert.KernelIdeal.Value.flushed9]
  funext j
  obtain ⟨p, q, rfl⟩ : ∃ (p q : Fin 128), j = ix2 p q := ⟨j 0, j 1, eq_ix2 (n0 := 128) (n1 := 128) j⟩
  have hemb : ((cfg0.win 9).blk t).view.emb (ix2 p q) = (ix2 (row t p) q : S4096x128.Idx) := by
    funext a; apply Fin.ext
    obtain ⟨e0, e1⟩ := idx9 t
    match a with
    | ⟨0, _⟩ => show win0_9.index t (0 : Fin 2) * 128 + 1 * p.val = t.val * 128 + p.val; rw [e0]; omega
    | ⟨1, _⟩ => show win0_9.index t (1 : Fin 2) * 128 + 1 * q.val = q.val; rw [e1]; omega
  show out0_9 (F := Ideal) (iblk m c 0 t) (iblk m c 1 t) (iblk m c 2 t) (iblk m c 3 t) (iblk m c 4 t) (iblk m c 5 t) (iblk m c 6 t) (iblk m c 7 t) (iblk m c 8 t) (ix2 p q)
      = G (ed m c) (es m c) (m ((c : Thread nD τ).loc main_arg4)) (m ((c : Thread nD τ).loc main_arg5)) (((cfg0.win 9).blk t).view.emb (ix2 p q))
  rw [hemb]
  refine (out9_apply (iblk m c 0 t) (iblk m c 1 t) (iblk m c 2 t) (iblk m c 3 t) (iblk m c 4 t) (iblk m c 5 t) (iblk m c 6 t) (iblk m c 7 t) (iblk m c 8 t) p q).trans ?_
  show max (blockSum (iblk m c 0 t) (iblk m c 4 t) (iblk m c 1 t) (iblk m c 5 t) (iblk m c 2 t) (iblk m c 6 t) (iblk m c 3 t) (iblk m c 7 t) p q + (iblk m c 8 t : Vec Ideal S1x128 .f32) (ix2 (0 : Fin 1) q)) zero
      = dense (ed m c) (es m c) (m ((c : Thread nD τ).loc main_arg4)) (m ((c : Thread nD τ).loc main_arg5)) (row t p) q
  unfold blockSum dense
  refine congrArg (max · zero) (congrArg₂ (· + ·) (congrArg₂ (· + ·) (congrArg₂ (· + ·) (congrArg₂ (· + ·) ?_ ?_) ?_) ?_) (blk8_at m c t q))
  · exact Finset.sum_congr rfl fun k _ => congrArg₂ (· * ·) (blk0_at m c t p k) (blk4_at m c t k q)
  · exact Finset.sum_congr rfl fun k _ => congrArg₂ (· * ·)
      (congrArg (Ideal.div · fifty) (Finset.sum_congr rfl fun j _ => blk1_at m c t p j k)) (blk5_at m c t k q)
  · exact Finset.sum_congr rfl fun k _ => congrArg₂ (· * ·) (blk2_at m c t p k) (blk6_at m c t k q)
  · exact Finset.sum_congr rfl fun k _ => congrArg₂ (· * ·)
      (congrArg (Ideal.div · hundred) (Finset.sum_congr rfl fun j _ => blk3_at m c t p j k)) (blk7_at m c t k q)

/-- An index of the result array is in point `t`'s block iff each coordinate is in the block's range on its axis. -/
theorem mem_blk9 (t : Fin cfg0.N) (i : S4096x128.Idx) :
    i ∈ ((cfg0.win 9).blk t).view.set ↔ ∀ a : Fin 2, win0_9.index t a * S128x128.size a ≤ (i a).val ∧ (i a).val < win0_9.index t a * S128x128.size a + S128x128.size a := by
  show i ∈ ((View.whole main_v31).slice (win0_9.rect t)).set ↔ _
  rw [View.set_slice_whole, Rect.mem_set_unit]
  exact Iff.rfl

/-- Row `r` of the result lies in the block of point `r / 128`. -/
theorem cover (i : S4096x128.Idx) :
    ∃ t : Fin cfg0.N, (cfg0.win 9).flush t = true ∧ i ∈ ((cfg0.win 9).blk t).view.set := by
  have h0 : (i 0).val < 4096 := (i 0).isLt
  have h1 : (i 1).val < 128 := (i 1).isLt
  refine ⟨⟨(i 0).val / 128, by rw [show cfg0.N = 32 from N_0]; omega⟩, flush0_9 _, ?_⟩
  rw [mem_blk9]
  obtain ⟨e0, e1⟩ := idx9 ⟨(i 0).val / 128, by rw [show cfg0.N = 32 from N_0]; omega⟩
  intro a
  match a with
  | ⟨0, _⟩ =>
    show win0_9.index _ (0 : Fin 2) * 128 ≤ (i 0).val ∧ (i 0).val < win0_9.index _ (0 : Fin 2) * 128 + 128
    rw [e0]; show (i 0).val / 128 * 128 ≤ (i 0).val ∧ (i 0).val < (i 0).val / 128 * 128 + 128; omega
  | ⟨1, _⟩ =>
    show win0_9.index _ (1 : Fin 2) * 128 ≤ (i 1).val ∧ (i 1).val < win0_9.index _ (1 : Fin 2) * 128 + 128
    rw [e1]; omega

/-- After the run the result array is `result`. -/
theorem final (c : Dev nD) : (dats m 0 c).arrAt 9 cfg0.N = result m c :=
  (dats m 0 c).arrAt_eq_of_cover 9 (result m c) (fun t _ => flushed_eq m c t) cover

/-- The kernel's run, read: the result array at the pooled dense layer of the looked-up arrays, the arguments unchanged. -/
theorem run : θ_run defs (onTc (τ := τ) (main (F := Ideal))) ⟨m, fun _ => 0, ρ⟩ fun r => ∀ c : Dev nD,
      r.2.mem ((c : Thread nD τ).loc main_v31) = result m c
      ∧ r.2.mem ((c : Thread nD τ).loc main_arg0) = m ((c : Thread nD τ).loc main_arg0)
      ∧ r.2.mem ((c : Thread nD τ).loc main_arg1) = m ((c : Thread nD τ).loc main_arg1)
      ∧ r.2.mem ((c : Thread nD τ).loc main_arg2) = m ((c : Thread nD τ).loc main_arg2)
      ∧ r.2.mem ((c : Thread nD τ).loc main_arg3) = m ((c : Thread nD τ).loc main_arg3)
      ∧ r.2.mem ((c : Thread nD τ).loc main_arg4) = m ((c : Thread nD τ).loc main_arg4)
      ∧ r.2.mem ((c : Thread nD τ).loc main_arg5) = m ((c : Thread nD τ).loc main_arg5) :=
  (θ_run defs _ _).mono (fun r h c => ⟨(h c).1.trans (final m c), (h c).2⟩)
    (Cert.KernelIdeal.Value.run_blocks m ρ)

end Cert.PooledDense.Blocks
-- ==== Proof.SumSplit.lean ====
/-
  A finite sum over an index range laid out as four consecutive stretches is the sum of the four stretches' sums,
  grouped from the left. Only commutativity and associativity of the addition are used, so the statement holds in
  every commutative additive monoid — in particular over the extended reals, where no finiteness is needed.
-/
import Mathlib.Algebra.BigOperators.Fin

open scoped BigOperators

namespace Cert.PooledDense

/-- `∑ over [0, a+b+c+d)` split at `a`, `a+b` and `a+b+c`. -/
theorem sum_four {M : Type*} [AddCommMonoid M] {a b c d : ℕ} (f : Fin (a + b + c + d) → M) :
    ∑ k, f k
      = ((∑ k : Fin a, f ⟨k.val, by have := k.isLt; omega⟩ + ∑ k : Fin b, f ⟨a + k.val, by have := k.isLt; omega⟩)
          + ∑ k : Fin c, f ⟨a + b + k.val, by have := k.isLt; omega⟩)
          + ∑ k : Fin d, f ⟨a + b + c + k.val, by have := k.isLt; omega⟩ := by
  rw [Fin.sum_univ_add, Fin.sum_univ_add, Fin.sum_univ_add]
  rfl

/-- The split of a row of 2336 features into its stretches of 1280, 64, 960 and 32. -/
theorem sum_2336 {M : Type*} [AddCommMonoid M] (f : Fin 2336 → M) :
    ∑ k, f k
      = ((∑ k : Fin 1280, f ⟨k.val, by have := k.isLt; omega⟩ + ∑ k : Fin 64, f ⟨1280 + k.val, by have := k.isLt; omega⟩)
          + ∑ k : Fin 960, f ⟨1344 + k.val, by have := k.isLt; omega⟩)
          + ∑ k : Fin 32, f ⟨2304 + k.val, by have := k.isLt; omega⟩ :=
  sum_four (a := 1280) (b := 64) (c := 960) (d := 32) f

end Cert.PooledDense
-- ==== Proof.RefValue.lean ====
/-
  The reference program's result, read entry by entry, is the pooled dense layer of `Spec` applied to the two looked-up
  tables. The reference lays a batch row's features end to end (a concatenation of four pieces), multiplies by the
  weight matrix, adds the bias and clamps at zero. Each piece is read at an index: the two flattened pieces are the
  looked-up table at row `k / width`, column `k % width`; the two pooled pieces are a sum over the remaining rows,
  started from the float word of zero, divided by the row count. The sum over the 2336 features is split at the piece
  boundaries, and within each stretch the concatenation is read from the piece that holds the coordinate.
-/
import proofs.«160230_j38740605009948_2_alg».proof.Proof.Gen.ReferenceIdeal.Read
import proofs.«160230_j38740605009948_2_alg».proof.Proof.Spec
import proofs.«160230_j38740605009948_2_alg».proof.Proof.SumSplit
import Idealize.ShloMosaic.Lib.Pipeline.Value
import Idealize.ShloMosaic.Lib.ValueIdx
import Idealize.ShloMosaic.PureOps.Ideal.Laws

noncomputable section

open scoped BigOperators

namespace Cert.PooledDense.Ref

open Cert.ReferenceIdeal Cert.ReferenceIdeal.Read Idealize.ShloMosaic Idealize.ShloMosaic.ValueIdx

/-- The first piece at `(r, k)`: the flattening of the first 20 looked-up rows reads row `k / 64`, column `k % 64`. -/
theorem v15_at (x0 : (⟨S4096x70, .i32⟩ : BufTy).Contents (Elt Ideal)) (x2 : (⟨S1000000x64, .f32⟩ : BufTy).Contents (Elt Ideal))
    (r : Fin 4096) (k : Fin 1280) :
    val_main_v15 (F := Ideal) x0 x2 (ix2 r k) = flatD (val_main_v6 (F := Ideal) x0 x2) r k := by
  rw [val_main_v15_apply, val_main_v14_apply]
  unfold flatD
  refine congrArg _ (funext fun a => Fin.ext ?_)
  have hr := r.isLt
  have hk := k.isLt
  match a with
  | ⟨0, _⟩ => show (r.val * 1280 + k.val) / 1280 = r.val; omega
  | ⟨1, _⟩ => show (r.val * 1280 + k.val) / 64 % 20 = k.val / 64; omega
  | ⟨2, _⟩ => show (r.val * 1280 + k.val) % 64 = k.val % 64; omega

/-- The second piece at `(r, k)`: the sum over rows `20 … 69` of column `k`, started from zero, divided by fifty. -/
theorem v21_at (x0 : (⟨S4096x70, .i32⟩ : BufTy).Contents (Elt Ideal)) (x2 : (⟨S1000000x64, .f32⟩ : BufTy).Contents (Elt Ideal))
    (r : Fin 4096) (k : Fin 64) :
    val_main_v21 (F := Ideal) x0 x2 (ix2 r k) = meanD (val_main_v6 (F := Ideal) x0 x2) r k := by
  rw [val_main_v21_apply, val_main_v20_apply, val_main_v18_apply, val_main_v19_apply, val_main_v17_apply,
    val_main_cst_3_apply, val_main_cst_apply]
  unfold meanD
  rw [Ideal.hostDivf_def]
  show Ideal.div (Ideal.ofBits .f32 0x00000000#32 + _) fifty = _
  rw [Ideal.ofBits_zero_f32, zero_add]
  refine congrArg (fun s => Ideal.div s fifty) (Finset.sum_congr rfl fun j _ => ?_)
  rw [val_main_v16_apply]
  refine congrArg _ (funext fun a => Fin.ext ?_)
  have hr := r.isLt
  have hk := k.isLt
  match a with
  | ⟨0, _⟩ => show (r.val * 64 + k.val) / 64 = r.val; omega
  | ⟨1, _⟩ => rfl
  | ⟨2, _⟩ => show (r.val * 64 + k.val) % 64 = k.val; omega

/-- The third piece at `(r, k)`: the flattening of the first 30 looked-up rows reads row `k / 32`, column `k % 32`. -/
theorem v23_at (x1 : (⟨S4096x130, .i32⟩ : BufTy).Contents (Elt Ideal)) (x3 : (⟨S1000000x32, .f32⟩ : BufTy).Contents (Elt Ideal))
    (r : Fin 4096) (k : Fin 960) :
    val_main_v23 (F := Ideal) x1 x3 (ix2 r k) = flatS (val_main_v13 (F := Ideal) x1 x3) r k := by
  rw [val_main_v23_apply, val_main_v22_apply]
  unfold flatS
  refine congrArg _ (funext fun a => Fin.ext ?_)
  have hr := r.isLt
  have hk := k.isLt
  match a with
  | ⟨0, _⟩ => show (r.val * 960 + k.val) / 960 = r.val; omega
  | ⟨1, _⟩ => show (r.val * 960 + k.val) / 32 % 30 = k.val / 32; omega
  | ⟨2, _⟩ => show (r.val * 960 + k.val) % 32 = k.val % 32; omega

/-- The fourth piece at `(r, k)`: the sum over rows `30 … 129` of column `k`, started from zero, divided by a hundred. -/
theorem v29_at (x1 : (⟨S4096x130, .i32⟩ : BufTy).Contents (Elt Ideal)) (x3 : (⟨S1000000x32, .f32⟩ : BufTy).Contents (Elt Ideal))
    (r : Fin 4096) (k : Fin 32) :
    val_main_v29 (F := Ideal) x1 x3 (ix2 r k) = meanS (val_main_v13 (F := Ideal) x1 x3) r k := by
  rw [val_main_v29_apply, val_main_v28_apply, val_main_v26_apply, val_main_v27_apply, val_main_v25_apply,
    val_main_cst_5_apply, val_main_cst_4_apply]
  unfold meanS
  rw [Ideal.hostDivf_def]
  show Ideal.div (Ideal.ofBits .f32 0x00000000#32 + _) hundred = _
  rw [Ideal.ofBits_zero_f32, zero_add]
  refine congrArg (fun s => Ideal.div s hundred) (Finset.sum_congr rfl fun j _ => ?_)
  rw [val_main_v24_apply]
  refine congrArg _ (funext fun a => Fin.ext ?_)
  have hr := r.isLt
  have hk := k.isLt
  match a with
  | ⟨0, _⟩ => show (r.val * 32 + k.val) / 32 = r.val; omega
  | ⟨1, _⟩ => rfl
  | ⟨2, _⟩ => show (r.val * 32 + k.val) % 32 = k.val; omega

/-- The concatenation at an index whose feature coordinate lies in the first stretch: the first piece, same row. -/
theorem v30_at0 (x0 : (⟨S4096x70, .i32⟩ : BufTy).Contents (Elt Ideal)) (x1 : (⟨S4096x130, .i32⟩ : BufTy).Contents (Elt Ideal))
    (x2 : (⟨S1000000x64, .f32⟩ : BufTy).Contents (Elt Ideal)) (x3 : (⟨S1000000x32, .f32⟩ : BufTy).Contents (Elt Ideal))
    (j : S4096x2336.Idx) (r : Fin 4096) (k : Fin 1280) (h0 : (j 0).val = r.val) (h1 : (j 1).val = k.val) :
    val_main_v30 (F := Ideal) x0 x1 x2 x3 j = val_main_v15 (F := Ideal) x0 x2 (ix2 r k) := by
  unfold val_main_v30
  refine concatenate_apply_piece (1 : Fin S4096x2336.rank) _ _ j 0 (by show (0 : Nat) < 4; omega) S4096x1280 _ rfl rfl 0 rfl (ix2 r k)
    (fun b hb => ?_) ?_
  · match b with
    | ⟨0, _⟩ => exact h0.symm
    | ⟨1, _⟩ => exact absurd (Fin.ext rfl) hb
  · show 0 + k.val = (j 1).val
    omega

/-- In the second stretch (features `1280 … 1343`): the second piece, at the feature coordinate less 1280. -/
theorem v30_at1 (x0 : (⟨S4096x70, .i32⟩ : BufTy).Contents (Elt Ideal)) (x1 : (⟨S4096x130, .i32⟩ : BufTy).Contents (Elt Ideal))
    (x2 : (⟨S1000000x64, .f32⟩ : BufTy).Contents (Elt Ideal)) (x3 : (⟨S1000000x32, .f32⟩ : BufTy).Contents (Elt Ideal))
    (j : S4096x2336.Idx) (r : Fin 4096) (k : Fin 64) (h0 : (j 0).val = r.val) (h1 : (j 1).val = 1280 + k.val) :
    val_main_v30 (F := Ideal) x0 x1 x2 x3 j = val_main_v21 (F := Ideal) x0 x2 (ix2 r k) := by
  unfold val_main_v30
  refine concatenate_apply_piece (1 : Fin S4096x2336.rank) _ _ j 1 (by show (1 : Nat) < 4; omega) S4096x64 _ rfl rfl 1280 rfl (ix2 r k)
    (fun b hb => ?_) ?_
  · match b with
    | ⟨0, _⟩ => exact h0.symm
    | ⟨1, _⟩ => exact absurd (Fin.ext rfl) hb
  · show 1280 + k.val = (j 1).val
    omega

/-- In the third stretch (features `1344 … 2303`): the third piece, at the feature coordinate less 1344. -/
theorem v30_at2 (x0 : (⟨S4096x70, .i32⟩ : BufTy).Contents (Elt Ideal)) (x1 : (⟨S4096x130, .i32⟩ : BufTy).Contents (Elt Ideal))
    (x2 : (⟨S1000000x64, .f32⟩ : BufTy).Contents (Elt Ideal)) (x3 : (⟨S1000000x32, .f32⟩ : BufTy).Contents (Elt Ideal))
    (j : S4096x2336.Idx) (r : Fin 4096) (k : Fin 960) (h0 : (j 0).val = r.val) (h1 : (j 1).val = 1344 + k.val) :
    val_main_v30 (F := Ideal) x0 x1 x2 x3 j = val_main_v23 (F := Ideal) x1 x3 (ix2 r k) := by
  unfold val_main_v30
  refine concatenate_apply_piece (1 : Fin S4096x2336.rank) _ _ j 2 (by show (2 : Nat) < 4; omega) S4096x960 _ rfl rfl 1344 rfl (ix2 r k)
    (fun b hb => ?_) ?_
  · match b with
    | ⟨0, _⟩ => exact h0.symm
    | ⟨1, _⟩ => exact absurd (Fin.ext rfl) hb
  · show 1344 + k.val = (j 1).val
    omega

/-- In the fourth stretch (features `2304 … 2335`): the fourth piece, at the feature coordinate less 2304. -/
theorem v30_at3 (x0 : (⟨S4096x70, .i32⟩ : BufTy).Contents (Elt Ideal)) (x1 : (⟨S4096x130, .i32⟩ : BufTy).Contents (Elt Ideal))
    (x2 : (⟨S1000000x64, .f32⟩ : BufTy).Contents (Elt Ideal)) (x3 : (⟨S1000000x32, .f32⟩ : BufTy).Contents (Elt Ideal))
    (j : S4096x2336.Idx) (r : Fin 4096) (k : Fin 32) (h0 : (j 0).val = r.val) (h1 : (j 1).val = 2304 + k.val) :
    val_main_v30 (F := Ideal) x0 x1 x2 x3 j = val_main_v29 (F := Ideal) x1 x3 (ix2 r k) := by
  unfold val_main_v30
  refine concatenate_apply_piece (1 : Fin S4096x2336.rank) _ _ j 3 (by show (3 : Nat) < 4; omega) S4096x32 _ rfl rfl 2304 rfl (ix2 r k)
    (fun b hb => ?_) ?_
  · match b with
    | ⟨0, _⟩ => exact h0.symm
    | ⟨1, _⟩ => exact absurd (Fin.ext rfl) hb
  · show 2304 + k.val = (j 1).val
    omega

/-- **The reference's result is the pooled dense layer of the two looked-up tables.** Entry `(r, q)` is the clamp at
    zero of the product row plus the bias; the product's sum over the 2336 features splits at the piece boundaries, and
    on each stretch the concatenated feature is the piece's entry, which the lemmas above read from the tables. -/
theorem ref_eq (x0 : (⟨S4096x70, .i32⟩ : BufTy).Contents (Elt Ideal)) (x1 : (⟨S4096x130, .i32⟩ : BufTy).Contents (Elt Ideal))
    (x2 : (⟨S1000000x64, .f32⟩ : BufTy).Contents (Elt Ideal)) (x3 : (⟨S1000000x32, .f32⟩ : BufTy).Contents (Elt Ideal))
    (x4 : (⟨S2336x128, .f32⟩ : BufTy).Contents (Elt Ideal)) (x5 : (⟨S128, .f32⟩ : BufTy).Contents (Elt Ideal)) :
    Read.val_main_v35 (F := Ideal) x0 x1 x2 x3 x4 x5
      = Cert.PooledDense.G (Read.val_main_v6 (F := Ideal) x0 x2) (Read.val_main_v13 (F := Ideal) x1 x3) x4 x5 := by
  funext i
  obtain ⟨r, q, rfl⟩ : ∃ (r : Fin 4096) (q : Fin 128), i = ix2 r q := ⟨i 0, i 1, eq_ix2 i⟩
  rw [val_main_v35_apply, val_main_v34_apply, val_main_v31_apply, val_main_v33_apply, val_main_v32_apply,
    val_main_call0_v0_apply, val_main_call0_cst_apply, Ideal.maximumf_def, Ideal.addf_def]
  show max ((∑ k : Fin 2336, _) + _) zero = dense _ _ x4 x5 r q
  unfold dense
  rw [sum_2336]
  have hw : ∀ (k : Fin 2336), ridx_main_v31 (ix2 r q) k = ix2 k q := fun k =>
    funext fun a => by match a with | ⟨0, _⟩ => rfl | ⟨1, _⟩ => rfl
  have hb : idx_main_v32 (idx_main_v33 (ix2 r q)) = ix1 q :=
    funext fun a => by match a with | ⟨0, _⟩ => rfl
  refine congrArg (max · zero) (congrArg₂ (· + ·) (congrArg₂ (· + ·) (congrArg₂ (· + ·) (congrArg₂ (· + ·) ?_ ?_) ?_) ?_)
    (congrArg x5 hb))
  · refine Finset.sum_congr rfl fun k _ => ?_
    rw [hw, v30_at0 x0 x1 x2 x3 _ r k rfl rfl, v15_at]
  · refine Finset.sum_congr rfl fun k _ => ?_
    rw [hw, v30_at1 x0 x1 x2 x3 _ r k rfl rfl, v21_at]
  · refine Finset.sum_congr rfl fun k _ => ?_
    rw [hw, v30_at2 x0 x1 x2 x3 _ r k rfl rfl, v23_at]
  · refine Finset.sum_congr rfl fun k _ => ?_
    rw [hw, v30_at3 x0 x1 x2 x3 _ r k rfl rfl, v29_at]

end Cert.PooledDense.Ref
-- ==== Proof.lean ====
/-
  Two looked-up embedding arrays feed a dense layer: each batch row's first rows of either array laid end to end, and
  the means of the remaining rows, form a vector of 2336 features; the result is that vector times a 2336 × 128 weight
  matrix, plus a bias, clamped below at zero.

  The reference builds the feature matrix (a concatenation of four pieces), takes one product with the whole weight
  matrix, adds the bias and clamps. The kernel, for each block of 128 batch rows, multiplies the four pieces by the four
  matching row ranges of the weight matrix and adds the four products from the left before the bias and the clamp; the
  means are computed inside the block. Over the extended reals both are the same function of the looked-up arrays, the
  weights and the bias (`Cert.PooledDense.G`): a sum over 2336 consecutive indices is the sum of the sums over its four
  stretches, which needs only that addition is commutative and associative, so no finiteness of the inputs is used. The
  lookups themselves — keys below zero moved up by the table's height, then the rows gathered — are the same term in
  both programs and are never opened. Both programs divide by the floats 50 and 100 and both start their sums at the
  float zero.

  The three frames are the generated ones (the reference's is its generated run with the result dropped); the
  idealization rewrote nothing, so its claim is trivial.
-/
import proofs.«160230_j38740605009948_2_alg».proof.Defs
import proofs.«160230_j38740605009948_2_alg».proof.Proof.Gen.Kernel
import proofs.«160230_j38740605009948_2_alg».proof.Proof.Gen.Kernel.Skeleton
import proofs.«160230_j38740605009948_2_alg».proof.Proof.Gen.Kernel.Launch
import proofs.«160230_j38740605009948_2_alg».proof.Proof.Gen.Kernel.Points
import proofs.«160230_j38740605009948_2_alg».proof.Proof.Gen.Kernel.Frame
import proofs.«160230_j38740605009948_2_alg».proof.Proof.Gen.KernelIdeal
import proofs.«160230_j38740605009948_2_alg».proof.Proof.Gen.KernelIdeal.Skeleton
import proofs.«160230_j38740605009948_2_alg».proof.Proof.Gen.KernelIdeal.Launch
import proofs.«160230_j38740605009948_2_alg».proof.Proof.Gen.KernelIdeal.Points
import proofs.«160230_j38740605009948_2_alg».proof.Proof.Gen.KernelIdeal.Frame
import proofs.«160230_j38740605009948_2_alg».proof.Proof.Gen.ReferenceIdeal
import proofs.«160230_j38740605009948_2_alg».proof.Proof.Gen.Pre_finite_inputs
import proofs.«160230_j38740605009948_2_alg».proof.Proof.Gen.KernelIdeal.Value
import proofs.«160230_j38740605009948_2_alg».proof.Proof.Gen.ReferenceIdeal.Run
import proofs.«160230_j38740605009948_2_alg».proof.Proof.Gen.ReferenceIdeal.Read
import proofs.«160230_j38740605009948_2_alg».proof.Proof.Blocks
import proofs.«160230_j38740605009948_2_alg».proof.Proof.RefValue
import Idealize.ShloMosaic.Adequacy
import Idealize.ShloMosaic.Init

noncomputable section

namespace Cert.Proof

open Idealize.ShloMosaic Idealize.ShloMosaic.TcCoe Idealize.SL.Sem

/-- The first lookup is one term in both programs. -/
theorem lookupD_eq (a0 : (⟨Cert.KernelIdeal.S4096x70, .i32⟩ : BufTy).Contents (Elt Ideal))
    (a2 : (⟨Cert.KernelIdeal.S1000000x64, .f32⟩ : BufTy).Contents (Elt Ideal)) :
    Cert.ReferenceIdeal.Read.val_main_v6 (F := Ideal) a0 a2 = Cert.PooledDense.Host.lookupD a0 a2 := rfl

/-- The second lookup is one term in both programs. -/
theorem lookupS_eq (a1 : (⟨Cert.KernelIdeal.S4096x130, .i32⟩ : BufTy).Contents (Elt Ideal))
    (a3 : (⟨Cert.KernelIdeal.S1000000x32, .f32⟩ : BufTy).Contents (Elt Ideal)) :
    Cert.ReferenceIdeal.Read.val_main_v13 (F := Ideal) a1 a3 = Cert.PooledDense.Host.lookupS a1 a3 := rfl

theorem frame_k : Cert.frame_Kernel := fun m ρ _ => Cert.Kernel.Gen.frame m ρ

theorem frame_ki : Cert.frame_KernelIdeal := fun m ρ _ => Cert.KernelIdeal.Gen.frame m ρ

theorem frame_ri : Cert.frame_ReferenceIdeal := fun m ρ _ =>
  (θ_run Cert.ReferenceIdeal.defs _ _).mono (fun _ h c => (h c).2) (Cert.ReferenceIdeal.Value.run (F := Ideal) m ρ)

theorem preserves : Cert.preserves_Kernel_KernelIdeal := trivial

/-- Both runs end with the result array at the pooled dense layer of the looked-up arrays of arguments that agree. -/
theorem algebraic : Cert.algebraic_KernelIdeal_ReferenceIdeal := by
  intro m ρ m' ρ' _ hagree
  refine ⟨fun c => Cert.PooledDense.Blocks.result m c, Cert.PooledDense.Blocks.run m ρ, ?_⟩
  refine (θ_run Cert.ReferenceIdeal.defs _ _).mono (fun _ h c => ⟨(h c).1.trans ?_, (h c).2⟩)
    (Cert.ReferenceIdeal.Value.run (F := Ideal) m' ρ')
  refine (Cert.ReferenceIdeal.Read.val_main_v35_eq (F := Ideal) _ _ _ _ _ _).trans ?_
  obtain ⟨h0, h1, h2, h3, h4, h5⟩ := hagree c
  rw [Cert.PooledDense.Ref.ref_eq, h0, h1, h2, h3, h4, h5, lookupD_eq, lookupS_eq]

theorem claim : Cert.Claim :=
  ⟨Cert.Kernel.Gen.facts, Cert.KernelIdeal.Gen.facts, Cert.ReferenceIdeal.Gen.facts, Cert.Pre_finite_inputs.Gen.facts,
    frame_k, frame_ki, frame_ri, preserves, algebraic⟩

end Cert.Proof

end
